-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S_ : Shape := ⟨0, ![]⟩
abbrev S8192 : Shape := ⟨1, ![8192]⟩
abbrev S1x8192 : Shape := ⟨2, ![1, 8192]⟩
abbrev S1024 : Shape := ⟨1, ![1024]⟩
abbrev S1024x128 : Shape := ⟨2, ![1024, 128]⟩
abbrev S1x1024 : Shape := ⟨2, ![1, 1024]⟩
abbrev S1024x1 : Shape := ⟨2, ![1024, 1]⟩
abbrev S1024x1024 : Shape := ⟨2, ![1024, 1024]⟩
abbrev S4096x128 : Shape := ⟨2, ![4096, 128]⟩
abbrev S4096 : Shape := ⟨1, ![4096]⟩

abbrev nBuf : Space → Nat
  | .hbm => 31
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .bf16⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S1x8192, .f32⟩
  | .hbm, ⟨7, _⟩ => ⟨S8192, .f32⟩
  | .hbm, ⟨8, _⟩ => ⟨S4096x128, .f32⟩
  | .hbm, ⟨9, _⟩ => ⟨S4096x128, .f32⟩
  | .hbm, ⟨10, _⟩ => ⟨S8192x128, .f32⟩
  | .hbm, ⟨11, _⟩ => ⟨S8192x128, .f32⟩
  | .hbm, ⟨12, _⟩ => ⟨S_, .f32⟩
  | .hbm, ⟨13, _⟩ => ⟨S8192, .f32⟩
  | .hbm, ⟨14, _⟩ => ⟨S4096, .f32⟩
  | .hbm, ⟨15, _⟩ => ⟨S4096, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .local _ .vmem, ⟨0, _⟩ => ⟨S8192x128, .f32⟩
  | .local _ .vmem, ⟨1, _⟩ => ⟨S8192x128, .bf16⟩
  | .local _ .vmem, ⟨2, _⟩ => ⟨S1x8192, .f32⟩
  | .local _ .vmem, ⟨3, _⟩ => ⟨S1024, .f32⟩
  | .local _ .vmem, ⟨4, _⟩ => ⟨S1024, .f32⟩
  | .local _ .vmem, ⟨5, _⟩ => ⟨S1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_call1_v0 : Ref sig .tc := ⟨.hbm, 14, rfl⟩
abbrev main_call1_v1 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_mult2 (i : grid0.Coords) : BitVec 32 :=
  let arg1 : BitVec 32 := BitVec.ofNat 32 (i 1).val
  let c1024_i32_1 : BitVec 32 := 1024#32
  let v5 : BitVec 32 := Scalar.muli arg1 c1024_i32_1
  v5
def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c1024_i32_1 : BitVec 32 := 1024#32
  let v5 : BitVec 32 := Scalar.muli arg1 c1024_i32_1
  let v6 : BitVec 32 := v5
  let v12 : Index := Scalar.indexCast v6
  let c0_3 : Index := 0#32
  ![v12.toNat, 0]
def k0_off3 (i : grid0.Coords) : Fin 2 → Nat :=
  let c0_4 : Index := 0#32
  let arg1 : BitVec 32 := BitVec.ofNat 32 (i 1).val
  let c1024_i32_1 : BitVec 32 := 1024#32
  let v5 : BitVec 32 := Scalar.muli arg1 c1024_i32_1
  let v6 : BitVec 32 := v5
  let v15 : Index := Scalar.indexCast v6
  ![0, v15.toNat]
def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_12 : BitVec 32 := 0#32
  let v49 : BitVec 1 := Scalar.cmpi .ne v48 c0_i32_12
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  reducesTo_S8192x128_S8192_d1 : S8192x128.ReducesTo [1] S8192
  h_S_ : 0 < S_.numel
  shapeCasts_S8192_S1x8192 : S8192.ShapeCasts S1x8192
  inb_S1024_S1024_0 : ∀ a, (![0] : Fin 1 → Nat) a + S1024.size a ≤ S1024.size a
  h_S1024 : 0 < S1024.numel
  shapeCasts_S1024_S1024 : S1024.ShapeCasts S1024
  h_S1024x128 : 0 < S1024x128.numel
  shapeCasts_S1024x128_S1024x128 : S1024x128.ShapeCasts S1024x128
  h_S1x1024 : 0 < S1x1024.numel
  shapeCasts_S1x1024_S1x1024 : S1x1024.ShapeCasts S1x1024
  reduces_S1024x128_S1024 : S1024x128.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  slices_S8192x128_S4096x128_4096_0 : S8192x128.Slices ![4096, 0] S4096x128
  slices_S8192x128_S4096x128_0_0 : S8192x128.Slices ![0, 0] S4096x128
  concatenates_S4096x128_S4096x128_S8192x128_d0 : Shape.Concatenates [S4096x128, S4096x128] S8192x128 0
  slices_S8192_S4096_4096 : S8192.Slices ![4096] S4096
  slices_S8192_S4096_0 : S8192.Slices ![0] S4096
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x128.size a ≤ S8192x128.size a
  k0_off2_inb : ∀ i : grid0.Coords, ∀ a, (k0_off2 i) a + S1024x128.size a ≤ S8192x128.size a
  k0_off3_inb : ∀ i : grid0.Coords, ∀ a, (k0_off3 i) a + S1x1024.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .f32 = 32 ∨ (Rect.block (s := S8192) S1024.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S8192x2 : Shape := ⟨2, ![8192, 2]⟩

abbrev nBuf : Space → Nat
  | .hbm => 67
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S8192x1, .i32⟩
  | .hbm, ⟨58, _⟩ => ⟨S8192x2, .i32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x128_S128x8192_1_0 : S8192x128.Transposes [1, 0] S128x8192
  bcast_S_S8192 : S_.BroadcastsInDim S8192 (![] : Fin 0 → Fin S8192.rank)
  concatenates_S8192x1_S8192x1_S8192x2_d1 : Shape.Concatenates [S8192x1, S8192x1] S8192x2 1
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.TailDefs.lean ====
/-
  The host lines after the kernel's region, as one function of three arrays: x itself, its row lengths n, and the
  denominators o the region wrote.

  The positive pair of row r is the row half the array away, cyclically: the host forms it by rotating the array (and the
  length vector) by 4096 rows — the second half followed by the first half. With that,
      pairDots r = sum_k x(r,k) * x(partner r, k),
      terms r    = - log ( exp ( (pairDots r / max (n r * n (partner r)) eps) / (1/2) ) / o r ),
  and the result is the sum of the terms over all rows (from the zero word).
-/
import proofs.«164468_j79139067396375_1_alg».proof.Proof.Gen.KernelIdeal

noncomputable section

namespace Cert.KernelIdeal.TailDefs

open Cert.KernelIdeal Cert.KernelIdeal.Gen Idealize.ShloMosaic

variable {F : FTy → Type} [FloatOps F]

/-- The array rotated by half its rows: rows 4096.. first, then rows 0..4095. -/
def rotRows (x : FVec F S8192x128 .f32) : FVec F S8192x128 .f32 :=
  concatenate S8192x128 0
    [⟨S4096x128, extractStridedSlice S4096x128 ![4096, 0] x slices_S8192x128_S4096x128_4096_0⟩,
     ⟨S4096x128, extractStridedSlice S4096x128 ![0, 0] x slices_S8192x128_S4096x128_0_0⟩]
    concatenates_S4096x128_S4096x128_S8192x128_d0

/-- A vector rotated by half its entries. -/
def rotVec (n : FVec F S8192 .f32) : FVec F S8192 .f32 :=
  concatenate S8192 0
    [⟨S4096, extractStridedSlice S4096 ![4096] n slices_S8192_S4096_4096⟩,
     ⟨S4096, extractStridedSlice S4096 ![0] n slices_S8192_S4096_0⟩]
    concatenates_S4096_S4096_S8192_d0

/-- The inner product of each row with its positive pair. -/
def pairDots (x : FVec F S8192x128 .f32) : FVec F S8192 .f32 :=
  Host.reduceAdd (mulf x (rotRows x)) (constant S_ .f32 0x00000000#32) reducesTo_S8192x128_S8192_d1 h_S_

/-- One row's term of the loss. -/
def terms (x : FVec F S8192x128 .f32) (n o : FVec F S8192 .f32) : FVec F S8192 .f32 :=
  Host.negf (Host.log (Host.divf
    (Host.exp (Host.divf
      (Host.divf (pairDots x)
        (maximumf (mulf n (rotVec n)) (broadcastInDim S8192 ![] bcast_S_S8192 (constant S_ .f32 0x358637BD#32))))
      (broadcastInDim S8192 ![] bcast_S_S8192 (constant S_ .f32 0x3F000000#32))))
    o))

/-- The result: the terms summed. -/
def tailOf (x : FVec F S8192x128 .f32) (n o : FVec F S8192 .f32) : FVec F S_ .f32 :=
  Host.reduceAdd (terms x n o) (constant S_ .f32 0x00000000#32) reducesTo_S8192_S_d0 h_S_

end Cert.KernelIdeal.TailDefs

end
-- ==== Proof.TailRead.lean ====
/-
  The kernel program's result, read off its run: the host lines after the region, applied to what the region leaves.

  After the region the result array holds whatever the write-backs left (the pipeline's array, named by the run), x itself
  is unchanged (an input window's array is never written), and the row lengths computed before the region are still where
  the host lines before the region put them (no window's array). The lines after the region are the function tailOf of
  exactly these three arrays.
-/
import proofs.«164468_j79139067396375_1_alg».proof.Proof.Gen.KernelIdeal.Frame
import proofs.«164468_j79139067396375_1_alg».proof.Proof.TailDefs
import Idealize.ShloMosaic.Lib.Pipeline.Value
import Idealize.ShloMosaic.Lib.StableHlo.Run
import Idealize.ShloMosaic.Lib.Tactic

set_option maxRecDepth 16384

noncomputable section

namespace Cert.KernelIdeal.TailRead

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ)

/-- What buffer b holds when the lines after the region start: the pipeline's arrays as the run left them, every other
    buffer as the lines before the region left it. -/
abbrev left (c : Dev nD) (b : Ref sig .tc) :=
  Pipeline.withArrays (cfgs 0).spec c (V0 m c) (fun w => (dats m 0 c).arrAt w (cfgs 0).N) (Proc.devRef .tc b)

-- (the two rotations are inlined functions: each of their buffers is read through a transport along its type equation,
-- and seeing through those transports is definitional unfolding, long but finite)
set_option maxHeartbeats 8000000 in
/-- The result buffer after the whole program: the lines after the region of the three arrays they read. -/
theorem result_read (c : Dev nD) :
    Pipeline.afterTail₀ cfgs (dats m) 0 (V0 m) [hostOps1, hostOps1_1, hostOps1_2, hostOps1_3] c main_v20
      = Cert.KernelIdeal.TailDefs.tailOf (left m c main_arg0) (left m c main_v3) (left m c main_v5) := by
  unfold Pipeline.afterTail₀
  show StableHlo.after (List.flatten [hostOps1, hostOps1_1, hostOps1_2, hostOps1_3]) _ (Proc.devRef .tc main_v20) = _
  generalize hz : Cert.KernelIdeal.TailDefs.tailOf (left m c main_arg0) (left m c main_v3) (left m c main_v5) = z
  simp only [hostOps1, hostOps1_1, hostOps1_2, hostOps1_3, List.flatten_cons, List.flatten_nil, List.append_nil,
    List.cons_append, List.nil_append]
  after_results
  rw [← hz]
  rfl

/-- x is as launched. -/
theorem left_arg0 (c : Dev nD) : left m c main_arg0 = m ((c.tc : Thread nD τ).loc main_arg0) :=
  (Pipeline.withArrays_arr spec0 launch0.win.arr_inj c _ _ 0).trans
    (((dats m 0 c).arrAt_in 0 rfl _).trans ((A_eq m c 0).trans (V_main_arg0 m c)))

/-- The result array is what the write-backs left. -/
theorem left_v5 (c : Dev nD) : left m c main_v5 = (dats m 0 c).arrAt 3 cfg0.N :=
  Pipeline.withArrays_arr spec0 launch0.win.arr_inj c _ _ 3

/-- The row lengths are where the lines before the region put them. -/
theorem left_v3 (c : Dev nD) : left m c main_v3 = V m c main_v3 :=
  Pipeline.withArrays_of_ne spec0 c _ _ main_v3 (by decide)

/-- The result buffer is no window's array: the run states it among the other buffers. -/
theorem result_mem : main_v20 ∈ Pipeline.restRefs sig (cfgs 0).spec :=
  Pipeline.mem_restRefs_of main_v20 rfl (by decide)

end Cert.KernelIdeal.TailRead

end
-- ==== Proof.Loss.lean ====
/-
  The contrastive loss as ONE function of the argument array x : [8192, 128] over the extended reals.

  Row r of x is a vector of 128 entries. With  sq r = sum_k x(r,k)^2,  nrm r = sqrt (sq r),  dotp r s = sum_k x(r,k) x(s,k)
  and the cosine  cosv r s = dotp r s / max (nrm r * nrm s) eps  (eps the word 0x358637BD, the same word wherever it is
  used), the loss is

      loss = sum_r  - log ( pair r / rows r ),

  where  pair r = exp (cosv r (partner r) / (1/2))  with  partner r = (r + 4096) mod 8192  the row's positive pair, and
  rows r = sum_s off r s  with  off r s = 0 on the diagonal and exp (cosv r s * 2) off it.

  Two elementary laws join the two programs' spellings, both valid on every extended real (no finiteness is used):
    * dividing by the word 1/2 is multiplying by the word 2 (division by a nonzero real is the product with its inverse);
    * e * (1 - d) with d the indicator of the diagonal is 0 on the diagonal and e off it (e * 0 = 0 and e * 1 = e hold
      for every extended real e).
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- The argument array: 8192 rows of 128 extended reals. -/
abbrev Arr : Type := (⟨2, ![8192, 128]⟩ : Shape).Idx → EReal

/-- The cosine's floor on the denominator: the word of 1e-6, never evaluated (the same word in both programs). -/
abbrev eps : EReal := Ideal.ofBits .f32 0x358637BD#32
/-- The temperature 1/2, as a word. -/
abbrev half : EReal := Ideal.ofBits .f32 0x3F000000#32
/-- Its inverse 2, as a word. -/
abbrev two : EReal := Ideal.ofBits .f32 0x40000000#32

/-- The squared length of row r. -/
def sq (x : Arr) (r : Fin 8192) : EReal := ∑ k : Fin 128, x (ix2 r k) * x (ix2 r k)
/-- The length of row r. -/
def nrm (x : Arr) (r : Fin 8192) : EReal := Ideal.sqrt (sq x r)
/-- The inner product of rows r and s. -/
def dotp (x : Arr) (r s : Fin 8192) : EReal := ∑ k : Fin 128, x (ix2 r k) * x (ix2 s k)
/-- The floored cosine of rows r and s. -/
def cosv (x : Arr) (r s : Fin 8192) : EReal := Ideal.div (dotp x r s) (max (nrm x r * nrm x s) eps)
/-- The positive pair of row r: the row half the array away, cyclically. -/
def partner (r : Fin 8192) : Fin 8192 := ⟨(r.val + 4096) % 8192, Nat.mod_lt _ (by decide)⟩
/-- The numerator: the exponential of the positive pair's cosine over the temperature. -/
def pair (x : Arr) (r : Fin 8192) : EReal := Ideal.exp (Ideal.div (cosv x r (partner r)) half)
/-- The off-diagonal exponentials: 0 on the diagonal. -/
def off (x : Arr) (r s : Fin 8192) : EReal := if r = s then 0 else Ideal.exp (cosv x r s * two)
/-- The denominator: the sum of row r's off-diagonal exponentials. -/
def rows (x : Arr) (r : Fin 8192) : EReal := ∑ s : Fin 8192, off x r s
/-- One row's term of the loss. -/
def term (x : Arr) (r : Fin 8192) : EReal := -(Ideal.log (Ideal.div (pair x r) (rows x r)))
/-- The loss. -/
def loss (x : Arr) : EReal := ∑ r : Fin 8192, term x r

/-- The word 0x3F000000 is the real 1/2. -/
theorem half_eq : half = ((1 / 2 : ℝ) : EReal) := by
  simp [half, Ideal.ofBits, Ideal.ieee, -EReal.coe_mul]; norm_num

/-- The word 0x40000000 is the real 2. -/
theorem two_eq : two = ((2 : ℝ) : EReal) := by
  simp [two, Ideal.ofBits, Ideal.ieee, -EReal.coe_mul]; norm_num

/-- Dividing by 1/2 is multiplying by 2, on every extended real. -/
theorem div_half (y : EReal) : Ideal.div y half = y * two := by
  rw [half_eq, two_eq, Ideal.div_coe (by norm_num : (1 / 2 : ℝ) ≠ 0)]
  norm_num

/-- The masked exponential: e times (1 - the diagonal's indicator). -/
theorem mask_diag (e : EReal) : e * ((1 : EReal) - ((1 : ℝ) : EReal)) = 0 := by
  rw [EReal.coe_one, sub_self_one_aux]; exact mul_zero e
where
  sub_self_one_aux : ((1 : EReal) - 1) = 0 := by
    rw [← EReal.coe_one, ← EReal.coe_sub]; norm_num

theorem mask_off (e : EReal) : e * ((1 : EReal) - ((0 : ℝ) : EReal)) = e := by
  rw [EReal.coe_zero, sub_zero, mul_one]

end Cert.Loss

end
-- ==== Proof.Inputs.lean ====
/-
  What the kernel's region finds in its three input windows.

  Each input window's block is the WHOLE array behind it at every grid point (block index (0, 0), block extent the array's),
  so the body sees, at every point: x itself; x after a change of float format (the identity on the extended reals); and
  the row lengths  nrm r = sqrt (sum_k x(r,k)^2)  laid out as one row [1, 8192].
  The host lines before the region compute the latter two from x; they are read here once, operation by operation.
-/
import proofs.«164468_j79139067396375_1_alg».proof.Proof.Gen.KernelIdeal.Frame
import proofs.«164468_j79139067396375_1_alg».proof.Proof.Loss
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout
import Idealize.ShloMosaic.PureOps.Ideal.Laws

set_option maxRecDepth 16384

noncomputable section

namespace Cert.KernelIdeal.Inputs

open Cert.KernelIdeal Cert.KernelIdeal.Gen Idealize.ShloMosaic Idealize.ShloMosaic.TcCoe Idealize.ShloMosaic.Tactic Idealize.SL.Sem
open Idealize.ShloMosaic.ValueIdx

section Blocks

variable {F : FTy → Type} [FloatOps F]
variable (m : (ℓ : Loc nD τ sig) → Buf (Elt F) ℓ)

/-- The three input windows never move: their block index is (0, 0) at every grid point. -/
theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)

/-- Window 0's block is the whole of x. -/
theorem block0 (c : Dev nD) (t : Fin cfg0.N) : (iblk m c 0 t : Vec F S8192x128 .f32) = V m c main_arg0 := by
  funext j
  unfold iblk
  rw [View.read_apply]
  show V m c main_arg0 _ = V m c main_arg0 j
  refine congrArg (V m c main_arg0) (funext fun a => Fin.ext ?_)
  match a with
  | ⟨0, _⟩ => show win0_0.index t 0 * 8192 + 1 * (j 0).val = (j 0).val; rw [(index0 t).1]; omega
  | ⟨1, _⟩ => show win0_0.index t 1 * 128 + 1 * (j 1).val = (j 1).val; rw [(index0 t).2]; omega

/-- Window 1's block is the whole of the format-changed copy of x. -/
theorem block1 (c : Dev nD) (t : Fin cfg0.N) : (iblk m c 1 t : Vec F S8192x128 .bf16) = V m c main_v0 := by
  funext j
  unfold iblk
  rw [View.read_apply]
  show V m c main_v0 _ = V m c main_v0 j
  refine congrArg (V m c main_v0) (funext fun a => Fin.ext ?_)
  match a with
  | ⟨0, _⟩ => show win0_1.index t 0 * 8192 + 1 * (j 0).val = (j 0).val; rw [(index1 t).1]; omega
  | ⟨1, _⟩ => show win0_1.index t 1 * 128 + 1 * (j 1).val = (j 1).val; rw [(index1 t).2]; omega

/-- Window 2's block is the whole row of lengths. -/
theorem block2 (c : Dev nD) (t : Fin cfg0.N) : (iblk m c 2 t : Vec F S1x8192 .f32) = V m c main_v4 := by
  funext j
  unfold iblk
  rw [View.read_apply]
  show V m c main_v4 _ = V m c main_v4 j
  refine congrArg (V m c main_v4) (funext fun a => Fin.ext ?_)
  match a with
  | ⟨0, _⟩ => show win0_2.index t 0 * 1 + 1 * (j 0).val = (j 0).val; rw [(index2 t).1]; omega
  | ⟨1, _⟩ => show win0_2.index t 1 * 8192 + 1 * (j 1).val = (j 1).val; rw [(index2 t).2]; omega

/-- The row lengths as the host computes them: the square root of each row's sum of squares. -/
def lens (x : FVec F S8192x128 .f32) : FVec F S8192 .f32 :=
  Host.sqrt (Host.reduceAdd (mulf x x) (constant S_ .f32 0x00000000#32) reducesTo_S8192x128_S8192_d1 h_S_)

/-- The host lines before the region, read: the format-changed copy, the lengths, and the lengths as one row. -/
theorem found_v0 (c : Dev nD) : V m c main_v0 = truncf .bf16 (m ((c.tc : Thread nD τ).loc main_arg0)) bitsLt_bf16_f32 := by
  show StableHlo.after hostOps0 (fun b => m (c, b)) (Proc.devRef .tc main_v0) = _
  after_results

theorem found_v3 (c : Dev nD) : V m c main_v3 = lens (m ((c.tc : Thread nD τ).loc main_arg0)) := by
  show StableHlo.after hostOps0 (fun b => m (c, b)) (Proc.devRef .tc main_v3) = _
  unfold lens
  after_results

theorem found_v4 (c : Dev nD) :
    V m c main_v4 = shapeCast S1x8192 (lens (m ((c.tc : Thread nD τ).loc main_arg0))) shapeCasts_S8192_S1x8192 := by
  show StableHlo.after hostOps0 (fun b => m (c, b)) (Proc.devRef .tc main_v4) = _
  unfold lens
  after_results
  rfl

end Blocks

/-! ## At the ideal values -/

/-- A host sum along the rows of an [8192, 128] array from the zero word: the plain sum of the row. -/
theorem rowSum_apply (y : FVec Ideal S8192x128 .f32) (s : Fin 8192) :
    Host.reduceAdd (F := Ideal) y (constant (F := Ideal) S_ .f32 0x00000000#32) reducesTo_S8192x128_S8192_d1 h_S_ (ix1 s)
      = ∑ k : Fin 128, y (ix2 s k) := by
  simp only [Host.reduceAdd, Ideal.hostReduceAdd_def]
  rw [Ideal.hostReduceAdd_single reducesTo_S8192x128_S8192_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The host's row lengths are the lengths of the rows. -/
theorem lens_apply (x : FVec Ideal S8192x128 .f32) (s : Fin 8192) : lens (F := Ideal) x (ix1 s) = Cert.Loss.nrm x s := by
  unfold lens
  show FloatOps.hostUnary .sqrt (Host.reduceAdd (F := Ideal) (mulf x x) _ reducesTo_S8192x128_S8192_d1 h_S_ (ix1 s)) = _
  rw [Ideal.hostUnary_sqrt_def, rowSum_apply]
  rfl

/-- The same laid out as one row. -/
theorem lensRow_apply (x : FVec Ideal S8192x128 .f32) (s : Fin 8192) :
    shapeCast S1x8192 (lens (F := Ideal) x) shapeCasts_S8192_S1x8192 (ix2 (0 : Fin 1) s) = Cert.Loss.nrm x s := by
  rw [shapeCast_a_1a_apply, lens_apply]

end Cert.KernelIdeal.Inputs

end
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.TailValue.lean ====
/-
  The host lines after the kernel's region, read at one row, at the extended reals.

  Rotating an array by half its rows puts row (r + 4096) mod 8192 — the positive pair of r — at row r: for r below 4096
  that row is in the first piece (the upper half of the array, offset 4096), otherwise in the second (the lower half, at
  row r - 4096). So the rotated inner products are the inner products of each row with its partner, the rotated lengths the
  partners' lengths, and, given the row lengths and the denominators, every row's term is the loss's term and their sum the
  loss.
-/
import proofs.«164468_j79139067396375_1_alg».proof.Proof.TailDefs
import proofs.«164468_j79139067396375_1_alg».proof.Proof.Inputs
import proofs.«164468_j79139067396375_1_alg».proof.Proof.Loss
import proofs.«164468_j79139067396375_1_alg».proof.Proof.LibTileSums
import Idealize.ShloMosaic.Lib.Pipeline.Value
import Idealize.ShloMosaic.Lib.IdealHost
import Idealize.ShloMosaic.Lib.ValueIdx
import Idealize.ShloMosaic.PureOps.Ideal.Laws

noncomputable section

namespace Cert.KernelIdeal.TailValue

open Cert.KernelIdeal Cert.KernelIdeal.Gen Cert.KernelIdeal.TailDefs Idealize.ShloMosaic Idealize.ShloMosaic.ValueIdx

/-! ## The rotations -/

/-- The rotated array at row r is the array at the partner of r. -/
theorem rotRows_apply (x : FVec Ideal S8192x128 .f32) (r : Fin 8192) (k : Fin 128) :
    rotRows (F := Ideal) x (ix2 r k) = x (ix2 (Cert.Loss.partner r) k) := by
  unfold rotRows
  have hr := r.isLt
  by_cases h : r.val < 4096
  · rw [concatenate_pair_apply_left (s₁ := S4096x128) (s₂ := S4096x128) (0 : Fin S8192x128.rank) _ _ _ (ix2 r k) rfl
      (ix2 (⟨r.val, h⟩ : Fin 4096) k) (fun b => by match b with | ⟨0, _⟩ => rfl | ⟨1, _⟩ => rfl)]
    refine extractStridedSlice_apply _ x _ _ _ fun a => ?_
    match a with
    | ⟨0, _⟩ => show (r.val + 4096) % 8192 = 4096 + r.val; omega
    | ⟨1, _⟩ => show k.val = 0 + k.val; omega
  · obtain ⟨q, hq, hqr⟩ : ∃ q : ℕ, q < 4096 ∧ q + 4096 = r.val := ⟨r.val - 4096, by omega, by omega⟩
    rw [concatenate_pair_apply_right (s₁ := S4096x128) (s₂ := S4096x128) (0 : Fin S8192x128.rank) _ _ _ (ix2 r k) rfl rfl
      (ix2 (⟨q, hq⟩ : Fin 4096) k)
      (fun b hb => by
        match b with
        | ⟨0, _⟩ => exact absurd rfl hb
        | ⟨1, _⟩ => rfl)
      hqr]
    refine extractStridedSlice_apply _ x _ _ _ fun a => ?_
    match a with
    | ⟨0, _⟩ => show (r.val + 4096) % 8192 = 0 + q; omega
    | ⟨1, _⟩ => show k.val = 0 + k.val; omega

/-- The rotated vector at entry r is the vector at the partner of r. -/
theorem rotVec_apply (n : FVec Ideal S8192 .f32) (r : Fin 8192) :
    rotVec (F := Ideal) n (ix1 r) = n (ix1 (Cert.Loss.partner r)) := by
  unfold rotVec
  have hr := r.isLt
  by_cases h : r.val < 4096
  · rw [concatenate_pair_apply_left (s₁ := S4096) (s₂ := S4096) (0 : Fin S8192.rank) _ _ _ (ix1 r) rfl
      (ix1 (⟨r.val, h⟩ : Fin 4096)) (fun b => by match b with | ⟨0, _⟩ => rfl)]
    refine extractStridedSlice_apply _ n _ _ _ fun a => ?_
    match a with
    | ⟨0, _⟩ => show (r.val + 4096) % 8192 = 4096 + r.val; omega
  · obtain ⟨q, hq, hqr⟩ : ∃ q : ℕ, q < 4096 ∧ q + 4096 = r.val := ⟨r.val - 4096, by omega, by omega⟩
    rw [concatenate_pair_apply_right (s₁ := S4096) (s₂ := S4096) (0 : Fin S8192.rank) _ _ _ (ix1 r) rfl rfl
      (ix1 (⟨q, hq⟩ : Fin 4096))
      (fun b hb => by
        match b with
        | ⟨0, _⟩ => exact absurd rfl hb)
      hqr]
    refine extractStridedSlice_apply _ n _ _ _ fun a => ?_
    match a with
    | ⟨0, _⟩ => show (r.val + 4096) % 8192 = 0 + q; omega

/-! ## The numerators' inner products -/

/-- The inner product of row r with its partner. -/
theorem pairDots_apply (x : FVec Ideal S8192x128 .f32) (r : Fin 8192) :
    pairDots (F := Ideal) x (ix1 r) = Cert.Loss.dotp x r (Cert.Loss.partner r) := by
  unfold pairDots
  rw [Cert.KernelIdeal.Inputs.rowSum_apply]
  unfold Cert.Loss.dotp
  refine Finset.sum_congr rfl fun k _ => ?_
  rw [mulf_apply, rotRows_apply]

/-! ## One row's term and the sum -/

/-- Given the row lengths and the denominators, row r's term is the loss's. -/
theorem terms_apply (x : FVec Ideal S8192x128 .f32) (n o : FVec Ideal S8192 .f32)
    (hn : ∀ r, n (ix1 r) = Cert.Loss.nrm x r) (ho : ∀ r, o (ix1 r) = Cert.Loss.rows x r) (r : Fin 8192) :
    terms (F := Ideal) x n o (ix1 r) = Cert.Loss.term x r := by
  unfold terms
  show FloatOps.hostNegf (FloatOps.hostUnary .log (FloatOps.hostDivf
      (FloatOps.hostUnary .exp (FloatOps.hostDivf
        (FloatOps.hostDivf (pairDots (F := Ideal) x (ix1 r))
          (FloatOps.maximumf (FloatOps.mulf (n (ix1 r)) (rotVec (F := Ideal) n (ix1 r)))
            (broadcastInDim S8192 ![] bcast_S_S8192 (constant (F := Ideal) S_ .f32 0x358637BD#32) (ix1 r))))
        (broadcastInDim S8192 ![] bcast_S_S8192 (constant (F := Ideal) S_ .f32 0x3F000000#32) (ix1 r))))
      (o (ix1 r)))) = _
  rw [pairDots_apply, rotVec_apply, hn, hn, ho, broadcastInDim_scalar_apply, broadcastInDim_scalar_apply,
    constant_apply, constant_apply]
  rfl

/-- Given the row lengths and the denominators, the host lines after the region compute the loss. -/
theorem tail_value (x : FVec Ideal S8192x128 .f32) (n o : FVec Ideal S8192 .f32)
    (hn : ∀ r, n (ix1 r) = Cert.Loss.nrm x r) (ho : ∀ r, o (ix1 r) = Cert.Loss.rows x r) :
    tailOf (F := Ideal) x n o = fun _ => Cert.Loss.loss x := by
  funext i
  unfold tailOf
  have ht : ∀ r, terms (F := Ideal) x n o (ix1 r) = Cert.Loss.term x r := terms_apply x n o hn ho
  generalize terms (F := Ideal) x n o = y0 at ht
  simp only [Host.reduceAdd, Ideal.hostReduceAdd_def]
  rw [Ideal.hostReduceAdd_total reducesTo_S8192_S_d0 (fun b => b.elim0) y0 _ i, constant_apply, Ideal.ofBits_zero_f32,
    zero_add, Cert.LibTileSums.sum_idx1]
  unfold Cert.Loss.loss
  exact Finset.sum_congr rfl fun r _ => ht r

end Cert.KernelIdeal.TailValue

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.Tile.lean ====
/-
  One [1024, 1024] tile of the off-diagonal exponentials, as the kernel's body computes it from the blocks it loads.

  At grid point (a, b) the body loads the row block R = rows 1024a .. 1024a+1023 of x (once in each float format: at the
  extended reals a change of format is the identity), the column block C = rows 1024b .. 1024b+1023, and the slice
  n(0, q) of the precomputed row lengths of the column block. Entry (p, q) of the tile is

      0                                                                if 1024a + p = 1024b + q   (the diagonal of the whole matrix)
      exp ( (sum_k R(p,k) C(q,k)) / max (sqrt (sum_k R(p,k)^2) * n(0,q)) eps * 2 )      otherwise,

  and the body adds the tile's row sums to the running row sums it carries from the point before.
  Each intermediate array of the body is named once here and read at an index (p, q) by its own lemma.
-/
import proofs.«164468_j79139067396375_1_alg».proof.Proof.Gen.KernelIdeal.Skeleton
import proofs.«164468_j79139067396375_1_alg».proof.Proof.Loss
import proofs.«164468_j79139067396375_1_alg».proof.Proof.LibColumn
import proofs.«164468_j79139067396375_1_alg».proof.Proof.LibRowReduce
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The body's intermediate arrays, named -/

/-- The lengths of the row block's rows, as a column. -/
def rowLen (R : FVec Ideal S1024x128 .f32) : FVec Ideal S1024x1 .f32 :=
  sqrt (shapeCast S1024x1 (multiReduction .add [1] S1024 (mulf R R) 0x00000000#32 reduces_S1024x128_S1024 (.inl rfl) rfl) shapeCasts_S1024_S1024x1)

/-- The inner products of the row block's rows with the column block's rows. -/
def inner (Rb Cb : FVec Ideal S1024x128 .bf16) : FVec Ideal S1024x1024 .f32 :=
  matmul dot_S1024x128_S1024x128_S1024x1024_1_1_0_0_n_n none (shapeCast S1024x128 Rb shapeCasts_S1024x128_S1024x128)
    (shapeCast S1024x128 Cb shapeCasts_S1024x128_S1024x128) (constant S1024x1024 .f32 0x00000000#32)

/-- The floored products of lengths. -/
def floorLen (R : FVec Ideal S1024x128 .f32) (n : FVec Ideal S1x1024 .f32) : FVec Ideal S1024x1024 .f32 :=
  maximumf (mulf (broadcastTo S1024x1024 (rowLen R) broadcasts_S1024x1_S1024x1024)
      (broadcastTo S1024x1024 (shapeCast S1x1024 n shapeCasts_S1x1024_S1x1024) broadcasts_S1x1024_S1024x1024))
    (broadcast S1024x1024 (Scalar.ofBits .f32 0x358637BD#32))

/-- The bit "this entry lies on the diagonal of the whole matrix". -/
def onDiag (i : grid0.Coords) : IVec S1024x1024 1 :=
  cmpi .eq
    (addi (broadcast S1024x1024 (Scalar.muli (BitVec.ofNat 32 (i 0).val) 1024#32)) (iota .tc S1024x1024 32 [0] iota_S1024x1024_d0_w32))
    (addi (broadcast S1024x1024 (Scalar.muli (BitVec.ofNat 32 (i 1).val) 1024#32)) (iota .tc S1024x1024 32 [1] iota_S1024x1024_d1_w32))

/-- The tile is the masked exponential of the scaled cosines. -/
theorem tile_eq (i : grid0.Coords) (R : FVec Ideal S1024x128 .f32) (Rb Cb : FVec Ideal S1024x128 .bf16) (n : FVec Ideal S1x1024 .f32) :
    k0_pay3 (F := Ideal) i R Rb Cb n
      = select (onDiag i) (broadcast S1024x1024 (Scalar.ofBits .f32 0x00000000#32))
          (exp (mulf (divf (inner Rb Cb) (floorLen R n)) (broadcast S1024x1024 (Scalar.ofBits .f32 0x40000000#32)))) := rfl

/-! ## Each read at an index -/

theorem rowLen_apply (R : FVec Ideal S1024x128 .f32) (p : Fin 1024) (u : Fin 1) :
    rowLen R (ix2 p u) = Ideal.sqrt (∑ k : Fin 128, R (ix2 p k) * R (ix2 p k)) := by
  unfold rowLen
  show Ideal.sqrt (shapeCast S1024x1 _ shapeCasts_S1024_S1024x1 (ix2 p u)) = _
  refine congrArg Ideal.sqrt ?_
  refine (Cert.LibColumn.shapeCast_a_a1_apply _ shapeCasts_S1024_S1024x1 p u).trans ?_
  exact Cert.LibRowReduce.rowSum_apply (mulf R R) 0x00000000#32 reduces_S1024x128_S1024 (.inl rfl) rfl p

/-- The product's index maps, coordinate by coordinate: output entry (p, q) with contraction index k reads the left
    operand at (p, k) and the right operand at (q, k) (both operands are contracted along their second axis). -/
theorem inner_lhs0 (j : S1024x1024.Idx) (c : dot_S1024x128_S1024x128_S1024x1024_1_1_0_0_n_n.contr.Idx) :
    (dot_S1024x128_S1024x128_S1024x1024_1_1_0_0_n_n.lhsIdx j c 0).val = (j 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem inner_lhs1 (j : S1024x1024.Idx) (c : dot_S1024x128_S1024x128_S1024x1024_1_1_0_0_n_n.contr.Idx) :
    (dot_S1024x128_S1024x128_S1024x1024_1_1_0_0_n_n.lhsIdx j c 1).val = (c ⟨0, by decide⟩).val :=
  dot_S1024x128_S1024x128_S1024x1024_1_1_0_0_n_n.lhsIdx_val_of_single rfl j c
theorem inner_rhs0 (j : S1024x1024.Idx) (c : dot_S1024x128_S1024x128_S1024x1024_1_1_0_0_n_n.contr.Idx) :
    (dot_S1024x128_S1024x128_S1024x1024_1_1_0_0_n_n.rhsIdx j c 0).val = (j 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem inner_rhs1 (j : S1024x1024.Idx) (c : dot_S1024x128_S1024x128_S1024x1024_1_1_0_0_n_n.contr.Idx) :
    (dot_S1024x128_S1024x128_S1024x1024_1_1_0_0_n_n.rhsIdx j c 1).val = (c ⟨0, by decide⟩).val :=
  dot_S1024x128_S1024x128_S1024x1024_1_1_0_0_n_n.rhsIdx_val_of_single rfl j c

theorem inner_apply (Rb Cb : FVec Ideal S1024x128 .bf16) (p q : Fin 1024) :
    inner Rb Cb (ix2 p q) = ∑ k : Fin 128, Rb (ix2 p k) * Cb (ix2 q k) := by
  unfold inner
  rw [shapeCast_self, shapeCast_self]
  simp only [matmul]
  rw [Ideal.matmul_constant_zero_apply,
    ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q)
      ((contrEquiv1 dot_S1024x128_S1024x128_S1024x1024_1_1_0_0_n_n 128 rfl rfl).symm k) = ix2 p k :=
    funext fun a => Fin.ext (by
      match a with
      | ⟨0, _⟩ => exact inner_lhs0 _ _
      | ⟨1, _⟩ => exact (inner_lhs1 _ _).trans hk)
  have er : dot_S1024x128_S1024x128_S1024x1024_1_1_0_0_n_n.rhsIdx (ix2 p q)
      ((contrEquiv1 dot_S1024x128_S1024x128_S1024x1024_1_1_0_0_n_n 128 rfl rfl).symm k) = ix2 q k :=
    funext fun a => Fin.ext (by
      match a with
      | ⟨0, _⟩ => exact inner_rhs0 _ _
      | ⟨1, _⟩ => exact (inner_rhs1 _ _).trans hk)
  rw [el, er]

theorem floorLen_apply (R : FVec Ideal S1024x128 .f32) (n : FVec Ideal S1x1024 .f32) (p q : Fin 1024) :
    floorLen R n (ix2 p q)
      = max (Ideal.sqrt (∑ k : Fin 128, R (ix2 p k) * R (ix2 p k)) * n (ix2 (0 : Fin 1) q)) Cert.Loss.eps := by
  unfold floorLen
  rw [maximumf_apply, mulf_apply, broadcast_apply, shapeCast_self,
    Cert.LibColumn.broadcastTo_a1_ab_apply, broadcastTo_1b_ab_apply, rowLen_apply]
  rfl

/-- Two positions 1024a + p and 1024b + q (a, b < 8; p, q < 1024) are equal as 32-bit words exactly when they are equal
    as numbers: nothing wraps below 2^32. -/
theorem word_eq_iff (a b p q : ℕ) (ha : a < 8) (hb : b < 8) (hp : p < 1024) (hq : q < 1024) :
    (BitVec.ofNat 32 a * 1024#32 + BitVec.ofNat 32 p = BitVec.ofNat 32 b * 1024#32 + BitVec.ofNat 32 q)
      ↔ 1024 * a + p = 1024 * b + q := by
  constructor
  · intro h
    have h' := congrArg BitVec.toNat h
    simp only [BitVec.toNat_add, BitVec.toNat_mul, BitVec.toNat_ofNat, BitVec.toNat_ofNat] at h'
    omega
  · intro h
    apply BitVec.eq_of_toNat_eq
    simp only [BitVec.toNat_add, BitVec.toNat_mul, BitVec.toNat_ofNat]
    omega

/-- The equality test of two words, as a case split. -/
theorem cmpi_eq_ite (x y : BitVec 32) : IntOp.cmpi .eq x y = if x = y then 1#1 else 0#1 := by
  unfold IntOp.cmpi
  by_cases h : x = y
  · rw [if_pos h, show (x == y) = true from beq_iff_eq.mpr h]; rfl
  · rw [if_neg h, show (x == y) = false from beq_eq_false_iff_ne.mpr h]; rfl

theorem onDiag_apply (i : grid0.Coords) (p q : Fin 1024) :
    onDiag i (ix2 p q) = if 1024 * (i 0).val + p.val = 1024 * (i 1).val + q.val then 1#1 else 0#1 := by
  unfold onDiag
  show IntOp.cmpi .eq (IntOp.addi _ (iota .tc S1024x1024 32 [0] iota_S1024x1024_d0_w32 (ix2 p q)))
      (IntOp.addi _ (iota .tc S1024x1024 32 [1] iota_S1024x1024_d1_w32 (ix2 p q))) = _
  rw [iota_single_apply, iota_single_apply]
  have h0 : (i 0).val < 8 := (i 0).isLt
  have h1 : (i 1).val < 8 := (i 1).isLt
  have e := word_eq_iff (i 0).val (i 1).val p.val q.val h0 h1 p.isLt q.isLt
  rw [cmpi_eq_ite]
  show (if (BitVec.ofNat 32 (i 0).val * 1024#32 + BitVec.ofNat 32 p.val
      = BitVec.ofNat 32 (i 1).val * 1024#32 + BitVec.ofNat 32 q.val) then 1#1 else 0#1) = _
  by_cases h : 1024 * (i 0).val + p.val = 1024 * (i 1).val + q.val
  · rw [if_pos h, if_pos (e.mpr h)]
  · rw [if_neg h, if_neg (fun h' => h (e.mp h'))]

/-- The tile at (p, q). -/
theorem tile_apply (i : grid0.Coords) (R : FVec Ideal S1024x128 .f32) (Rb Cb : FVec Ideal S1024x128 .bf16) (n : FVec Ideal S1x1024 .f32)
    (p q : Fin 1024) :
    k0_pay3 (F := Ideal) i R Rb Cb n (ix2 p q)
      = if 1024 * (i 0).val + p.val = 1024 * (i 1).val + q.val then 0
        else Ideal.exp (Ideal.div (∑ k : Fin 128, Rb (ix2 p k) * Cb (ix2 q k))
              (max (Ideal.sqrt (∑ k : Fin 128, R (ix2 p k) * R (ix2 p k)) * n (ix2 (0 : Fin 1) q)) Cert.Loss.eps) * Cert.Loss.two) := by
  rw [tile_eq, select_apply, onDiag_apply]
  by_cases h : 1024 * (i 0).val + p.val = 1024 * (i 1).val + q.val
  · rw [if_pos h, if_pos h, select_one, broadcast_apply]
    exact Ideal.ofBits_zero_f32
  · rw [if_neg h, if_neg h, select_zero]
    show Ideal.exp (mulf (divf (inner Rb Cb) (floorLen R n)) _ (ix2 p q)) = _
    rw [mulf_apply, divf_apply, inner_apply, floorLen_apply, broadcast_apply]
    rfl

/-- The accumulation step: the carried row sums plus the tile's row sums. -/
theorem accum_apply (T : FVec Ideal S1024x1024 .f32) (acc : FVec Ideal S1024 .f32) (p : Fin 1024) :
    k0_pay1 (F := Ideal) T acc (ix1 p) = acc (ix1 p) + ∑ q : Fin 1024, T (ix2 p q) := by
  unfold k0_pay1
  rw [shapeCast_self, addf_apply]
  exact congrArg (acc (ix1 p) + ·) (Cert.LibRowReduce.rowSum_apply T 0x00000000#32 reduces_S1024x1024_S1024 (.inl rfl) rfl p)

/-- The reset: zero row sums. -/
theorem reset_apply (p : Fin 1024) : k0_pay2 (F := Ideal) (ix1 p) = 0 := by
  unfold k0_pay2
  rw [shapeCast_self, broadcast_apply]
  exact Ideal.ofBits_zero_f32

end Cert.KernelIdeal.Tile

end
-- ==== Proof.Pieces.lean ====
/-
  What one run of the kernel's body leaves behind, in each of its three cases, as values.

  The body keeps running row sums in a scratch vector of 1024 entries. At the first column tile of a row block (case A) it
  resets the vector to zero and then adds the tile's row sums; at the middle column tiles (case B) it adds the tile's row
  sums to what the point before left; at the last column tile (case C) it does the same and also copies the vector to the
  output block. The tile is computed from sub-blocks of the three whole input arrays: rows 1024a.. of x (twice, once per
  float format), rows 1024b.. of x, and columns 1024b.. of the row-length vector, (a, b) being the grid point.
  Stated for any float instance: nothing here looks inside the arithmetic.
-/
import proofs.«164468_j79139067396375_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem zeroOff : (![0] : Fin 1 → Nat) = fun _ => 0 := funext fun a => by fin_cases a; rfl

/-- The tile at grid point i, from the three whole input arrays: the body's tile of the sub-blocks it loads. -/
def tileOf (i : grid0.Coords) (x0 : Vec F S8192x128 .f32) (x1 : Vec F S8192x128 .bf16) (x2 : Vec F S1x8192 .f32) :
    FVec F S1024x1024 .f32 :=
  k0_pay3 i (View.ld x0 (Rect.unit (s := S8192x128) (k0_off1 i) S1024x128.size (k0_off1_inb i)))
    (View.ld x1 (Rect.unit (s := S8192x128) (k0_off1 i) S1024x128.size (k0_off1_inb i)))
    (View.ld x1 (Rect.unit (s := S8192x128) (k0_off2 i) S1024x128.size (k0_off2_inb i)))
    (View.ld x2 (Rect.unit (s := S1x8192) (k0_off3 i) S1x1024.size (k0_off3_inb i)))

/-- Case B: the carried sums plus the tile's row sums. -/
theorem carried_B (c : Dev nD) (i : grid0.Coords) (arg2 : Memref sig .tc .vmem S8192x128 .f32) (harg2 : arg2.IsWhole) (arg3 : Memref sig .tc .vmem S8192x128 .bf16) (harg3 : arg3.IsWhole) (arg4 : Memref sig .tc .vmem S1x8192 .f32) (harg4 : arg4.IsWhole) (arg5 : Memref sig .tc .vmem S1024 .f32) (harg5 : arg5.IsWhole) (arg6 : Memref sig .tc .vmem S1024 .f32) (harg6 : arg6.IsWhole) (hc0 : ¬cond0_0 i) (hc1 : ¬cond0_1 i)
    (x0 : Vec F S8192x128 .f32) (x1 : Vec F S8192x128 .bf16) (x2 : Vec F S1x8192 .f32) (xs0 : Vec F S1024 .f32) :
    sout0_B_0 c i arg2 harg2 arg3 harg3 arg4 harg4 arg5 harg5 arg6 harg6 hc0 hc1 x0 x1 x2 xs0 = k0_pay1 (tileOf i x0 x1 x2) xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero zeroOff]
  simp only [View.readAt_eq_ld, harg2.read_unread, harg3.read_unread, harg4.read_unread, harg6.read_unread,
    View.ld_unit_zero (S := S1024) zeroOff]
  rfl

/-- Case C leaves the same in the carried scratch. -/
theorem carried_C (c : Dev nD) (i : grid0.Coords) (arg2 : Memref sig .tc .vmem S8192x128 .f32) (harg2 : arg2.IsWhole) (arg3 : Memref sig .tc .vmem S8192x128 .bf16) (harg3 : arg3.IsWhole) (arg4 : Memref sig .tc .vmem S1x8192 .f32) (harg4 : arg4.IsWhole) (arg5 : Memref sig .tc .vmem S1024 .f32) (harg5 : arg5.IsWhole) (arg6 : Memref sig .tc .vmem S1024 .f32) (harg6 : arg6.IsWhole) (hc0 : ¬cond0_0 i) (hc1 : cond0_1 i)
    (x0 : Vec F S8192x128 .f32) (x1 : Vec F S8192x128 .bf16) (x2 : Vec F S1x8192 .f32) (xs0 : Vec F S1024 .f32) :
    sout0_C_0 c i arg2 harg2 arg3 harg3 arg4 harg4 arg5 harg5 arg6 harg6 hc0 hc1 x0 x1 x2 xs0 = k0_pay1 (tileOf i x0 x1 x2) xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zeroOff]
  simp only [View.readAt_eq_ld, harg2.read_unread, harg3.read_unread, harg4.read_unread, harg6.read_unread,
    View.ld_unit_zero (S := S1024) zeroOff]
  rfl

/-- Case C copies it to the output block. -/
theorem output_C (c : Dev nD) (i : grid0.Coords) (arg2 : Memref sig .tc .vmem S8192x128 .f32) (harg2 : arg2.IsWhole) (arg3 : Memref sig .tc .vmem S8192x128 .bf16) (harg3 : arg3.IsWhole) (arg4 : Memref sig .tc .vmem S1x8192 .f32) (harg4 : arg4.IsWhole) (arg5 : Memref sig .tc .vmem S1024 .f32) (harg5 : arg5.IsWhole) (arg6 : Memref sig .tc .vmem S1024 .f32) (harg6 : arg6.IsWhole) (hc0 : ¬cond0_0 i) (hc1 : cond0_1 i)
    (x0 : Vec F S8192x128 .f32) (x1 : Vec F S8192x128 .bf16) (x2 : Vec F S1x8192 .f32) (xs0 : Vec F S1024 .f32) :
    out0_C_3 c i arg2 harg2 arg3 harg3 arg4 harg4 arg5 harg5 arg6 harg6 hc0 hc1 x0 x1 x2 xs0 = k0_pay1 (tileOf i x0 x1 x2) xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zeroOff, View.readCov_unit_zero (S := S1024) _ zeroOff]
  simp only [View.readAt_eq_ld, harg2.read_unread, harg3.read_unread, harg4.read_unread, harg6.read_unread,
    View.ld_unit_zero (S := S1024) zeroOff]
  rfl

/-- Case A: the reset vector plus the tile's row sums. -/
theorem carried_A (c : Dev nD) (i : grid0.Coords) (arg2 : Memref sig .tc .vmem S8192x128 .f32) (harg2 : arg2.IsWhole) (arg3 : Memref sig .tc .vmem S8192x128 .bf16) (harg3 : arg3.IsWhole) (arg4 : Memref sig .tc .vmem S1x8192 .f32) (harg4 : arg4.IsWhole) (arg5 : Memref sig .tc .vmem S1024 .f32) (harg5 : arg5.IsWhole) (arg6 : Memref sig .tc .vmem S1024 .f32) (harg6 : arg6.IsWhole) (hc0 : cond0_0 i) (hc1 : ¬cond0_1 i)
    (x0 : Vec F S8192x128 .f32) (x1 : Vec F S8192x128 .bf16) (x2 : Vec F S1x8192 .f32) :
    sout0_A_0 c i arg2 harg2 arg3 harg3 arg4 harg4 arg5 harg5 arg6 harg6 hc0 hc1 x0 x1 x2 = k0_pay1 (tileOf i x0 x1 x2) (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024) zeroOff, View.readCov_unit_zero (S := S1024) _ zeroOff]
  simp only [View.readAt_eq_ld, harg2.read_unread, harg3.read_unread, harg4.read_unread,
    View.ld_unit_zero (S := S1024) zeroOff]
  rfl

end Cert.KernelIdeal.Pieces

end
-- ==== Proof.TileValue.lean ====
/-
  The tile at grid point (a, b), in terms of the whole argument array x.

  The row block the body loads is rows 1024a + p of x, the column block rows 1024b + q, and the slice of row lengths the
  entries 1024b + q; so entry (p, q) of the tile is the off-diagonal exponential of rows 1024a + p and 1024b + q of x:
  0 when the two rows are the same row, exp (cos * 2) otherwise.
-/
import proofs.«164468_j79139067396375_1_alg».proof.Proof.Tile
import proofs.«164468_j79139067396375_1_alg».proof.Proof.Pieces

noncomputable section

namespace Cert.KernelIdeal.TileValue

open Cert.KernelIdeal Cert.KernelIdeal.Gen Idealize.ShloMosaic Idealize.ShloMosaic.ValueIdx

/-- Row p of row block a. -/
def rowAt (a : ℕ) (ha : a < 8) (p : Fin 1024) : Fin 8192 := ⟨1024 * a + p.val, by have := p.isLt; omega⟩

/-- The word 1024 * a, for a block number a < 8, read as an offset. -/
theorem off_word : ∀ a : Fin 8, (Scalar.indexCast (Scalar.muli (BitVec.ofNat 32 a.val) 1024#32)).toNat = 1024 * a.val := by
  decide

theorem off1_0 (i : grid0.Coords) : k0_off1 i 0 = 1024 * (i 0).val := off_word (i 0)
theorem off2_0 (i : grid0.Coords) : k0_off2 i 0 = 1024 * (i 1).val := off_word (i 1)
theorem off3_1 (i : grid0.Coords) : k0_off3 i 1 = 1024 * (i 1).val := off_word (i 1)

/-- The row block: entry (p, k) is x at row 1024a + p. -/
theorem rowBlock_apply {e : EltTy} (i : grid0.Coords) (X : Vec Ideal S8192x128 e) (p : Fin 1024) (k : Fin 128) :
    View.ld (Val := Elt Ideal) X (Rect.unit (s := S8192x128) (k0_off1 i) S1024x128.size (k0_off1_inb i)) (ix2 p k)
      = X (ix2 (rowAt (i 0).val (i 0).isLt p) k) := by
  show X _ = X _
  refine congrArg X (funext fun a => Fin.ext ?_)
  match a with
  | ⟨0, _⟩ => show k0_off1 i 0 + 1 * p.val = 1024 * (i 0).val + p.val; rw [off1_0]; omega
  | ⟨1, _⟩ => show k0_off1 i 1 + 1 * k.val = k.val; show 0 + 1 * k.val = k.val; omega

/-- The column block: entry (q, k) is x at row 1024b + q. -/
theorem colBlock_apply {e : EltTy} (i : grid0.Coords) (X : Vec Ideal S8192x128 e) (q : Fin 1024) (k : Fin 128) :
    View.ld (Val := Elt Ideal) X (Rect.unit (s := S8192x128) (k0_off2 i) S1024x128.size (k0_off2_inb i)) (ix2 q k)
      = X (ix2 (rowAt (i 1).val (i 1).isLt q) k) := by
  show X _ = X _
  refine congrArg X (funext fun a => Fin.ext ?_)
  match a with
  | ⟨0, _⟩ => show k0_off2 i 0 + 1 * q.val = 1024 * (i 1).val + q.val; rw [off2_0]; omega
  | ⟨1, _⟩ => show k0_off2 i 1 + 1 * k.val = k.val; show 0 + 1 * k.val = k.val; omega

/-- The slice of row lengths: entry (0, q) is the length at row 1024b + q. -/
theorem lenBlock_apply (i : grid0.Coords) (N : Vec Ideal S1x8192 .f32) (q : Fin 1024) :
    View.ld (Val := Elt Ideal) N (Rect.unit (s := S1x8192) (k0_off3 i) S1x1024.size (k0_off3_inb i)) (ix2 (0 : Fin 1) q)
      = N (ix2 (0 : Fin 1) (rowAt (i 1).val (i 1).isLt q)) := by
  show N _ = N _
  refine congrArg N (funext fun a => Fin.ext ?_)
  match a with
  | ⟨0, _⟩ => show k0_off3 i 0 + 1 * 0 = 0; show 0 + 1 * 0 = 0; omega
  | ⟨1, _⟩ => show k0_off3 i 1 + 1 * q.val = 1024 * (i 1).val + q.val; rw [off3_1]; omega

/-- The off-diagonal entry from blocks that are known row by row: if the row block's rows are row ra of x, the column
    block's rows row rb of x, and the length entry the length of row rb, the body's expression is exp (cos ra rb * 2). -/
theorem entry_of_rows (x : Cert.Loss.Arr) (R : FVec Ideal S1024x128 .f32) (Rb Cb : FVec Ideal S1024x128 .bf16) (n : FVec Ideal S1x1024 .f32)
    (p q : Fin 1024) (ra rb : Fin 8192)
    (hR : ∀ k, R (ix2 p k) = x (ix2 ra k)) (hRb : ∀ k, Rb (ix2 p k) = x (ix2 ra k)) (hCb : ∀ k, Cb (ix2 q k) = x (ix2 rb k))
    (hn : n (ix2 (0 : Fin 1) q) = Cert.Loss.nrm x rb) :
    Ideal.exp (Ideal.div (∑ k : Fin 128, Rb (ix2 p k) * Cb (ix2 q k))
        (max (Ideal.sqrt (∑ k : Fin 128, R (ix2 p k) * R (ix2 p k)) * n (ix2 (0 : Fin 1) q)) Cert.Loss.eps) * Cert.Loss.two)
      = Ideal.exp (Cert.Loss.cosv x ra rb * Cert.Loss.two) := by
  simp only [hR, hRb, hCb, hn]
  rfl

/-- The tile is the off-diagonal exponentials of the two row blocks. -/
theorem tileOf_apply (i : grid0.Coords) (x : Cert.Loss.Arr) (X : Vec Ideal S8192x128 .f32) (Xb : Vec Ideal S8192x128 .bf16)
    (N : Vec Ideal S1x8192 .f32) (hX : ∀ r k, X (ix2 r k) = x (ix2 r k)) (hXb : ∀ r k, Xb (ix2 r k) = x (ix2 r k))
    (hN : ∀ s, N (ix2 (0 : Fin 1) s) = Cert.Loss.nrm x s) (p q : Fin 1024) :
    Cert.KernelIdeal.Pieces.tileOf (F := Ideal) i X Xb N (ix2 p q)
      = Cert.Loss.off x (rowAt (i 0).val (i 0).isLt p) (rowAt (i 1).val (i 1).isLt q) := by
  unfold Cert.KernelIdeal.Pieces.tileOf
  rw [Cert.KernelIdeal.Tile.tile_apply]
  unfold Cert.Loss.off
  have hc : (1024 * (i 0).val + p.val = 1024 * (i 1).val + q.val)
      ↔ rowAt (i 0).val (i 0).isLt p = rowAt (i 1).val (i 1).isLt q := by
    unfold rowAt; rw [Fin.mk.injEq]
  by_cases h : 1024 * (i 0).val + p.val = 1024 * (i 1).val + q.val
  · rw [if_pos h, if_pos (hc.mp h)]
  · rw [if_neg h, if_neg (fun h' => h (hc.mpr h'))]
    exact entry_of_rows x _ _ _ _ p q _ _
      (fun k => (rowBlock_apply i X p k).trans (hX _ k))
      (fun k => (rowBlock_apply i Xb p k).trans (hXb _ k))
      (fun k => (colBlock_apply i Xb q k).trans (hXb _ k))
      ((lenBlock_apply i N q).trans (hN _))

end Cert.KernelIdeal.TileValue

end
-- ==== Proof.Accum.lean ====
/-
  The running row sums across the grid.

  Grid point n = 8a + b handles row block a and column tile b. By induction on n, after point n the carried vector holds,
  at local row p, the sum over the column tiles j = 0 .. b of the tile row sums of row block a:

      acc_n (p) = sum_{j <= b} sum_{q < 1024} off (1024a + p) (1024j + q).

  The first tile of a row block (b = 0) starts from the reset vector 0, and 0 + s = s; every later tile adds to what the
  point before left (the same row block, since b > 0). At b = 7 the same vector is copied to the output block, and the
  eight tiles together are the whole row:  sum_{j < 8} sum_{q < 1024} off r (1024j + q) = sum_{s < 8192} off r s  — a sum
  regrouped by blocks, valid in any commutative monoid.
  Positions are natural numbers here, so that tile arithmetic is plain arithmetic; off is extended by 0 outside the array.
-/
import proofs.«164468_j79139067396375_1_alg».proof.Proof.TileValue
import proofs.«164468_j79139067396375_1_alg».proof.Proof.Inputs
import proofs.«164468_j79139067396375_1_alg».proof.Proof.LibTileSums

set_option maxRecDepth 16384

noncomputable section

namespace Cert.KernelIdeal.Accum

open Cert.KernelIdeal Cert.KernelIdeal.Gen Idealize.ShloMosaic Idealize.ShloMosaic.TcCoe Idealize.SL.Sem
open Idealize.ShloMosaic.ValueIdx

/-- The off-diagonal exponential at natural-number positions, 0 outside the array. -/
def offN (x : Cert.Loss.Arr) (r s : ℕ) : EReal :=
  if h : r < 8192 ∧ s < 8192 then Cert.Loss.off x ⟨r, h.1⟩ ⟨s, h.2⟩ else 0

theorem offN_of_lt (x : Cert.Loss.Arr) (r s : Fin 8192) : offN x r.val s.val = Cert.Loss.off x r s :=
  dif_pos ⟨r.isLt, s.isLt⟩

/-- The eight column tiles of a row are the row. -/
theorem tiles_eq_row (x : Cert.Loss.Arr) (r : Fin 8192) :
    ∑ j ∈ Finset.range 8, ∑ q : Fin 1024, offN x r.val (1024 * j + q.val) = Cert.Loss.rows x r := by
  unfold Cert.Loss.rows
  rw [Finset.sum_range (fun j => ∑ q : Fin 1024, offN x r.val (1024 * j + q.val))]
  rw [← Cert.LibTileSums.sum_blocks 8 1024 (fun s => offN x r.val s)]
  exact Finset.sum_congr rfl fun s _ => offN_of_lt x r s

variable (m : (ℓ : Loc nD τ sig) → Buf (Elt Ideal) ℓ)

/-- The argument array on core c. -/
abbrev arg (c : Dev nD) : Cert.Loss.Arr := m ((c.tc : Thread nD τ).loc main_arg0)

/-- Grid point n is row block n / 8, column tile n % 8. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The tile the body computes at grid point t, from the blocks the region hands it. -/
def tileAt (c : Dev nD) (t : Fin cfg0.N) : FVec Ideal S1024x1024 .f32 :=
  Cert.KernelIdeal.Pieces.tileOf (F := Ideal) (grid0.coords t) (iblk m c 0 t) (iblk m c 1 t) (iblk m c 2 t)

theorem tileAt_apply (c : Dev nD) (t : Fin cfg0.N) (p q : Fin 1024) :
    tileAt m c t (ix2 p q) = offN (arg m c) (1024 * (t.val / 8) + p.val) (1024 * (t.val % 8) + q.val) := by
  have hX : ∀ r k, (iblk m c 0 t : Vec Ideal S8192x128 .f32) (ix2 r k) = arg m c (ix2 r k) := fun r k => by
    rw [Cert.KernelIdeal.Inputs.block0, V_main_arg0]
  have hXb : ∀ r k, (iblk m c 1 t : Vec Ideal S8192x128 .bf16) (ix2 r k) = arg m c (ix2 r k) := fun r k => by
    rw [Cert.KernelIdeal.Inputs.block1, Cert.KernelIdeal.Inputs.found_v0]; rfl
  have hN : ∀ s, (iblk m c 2 t : Vec Ideal S1x8192 .f32) (ix2 (0 : Fin 1) s) = Cert.Loss.nrm (arg m c) s := fun s => by
    rw [Cert.KernelIdeal.Inputs.block2, Cert.KernelIdeal.Inputs.found_v4]
    exact Cert.KernelIdeal.Inputs.lensRow_apply _ s
  unfold tileAt
  rw [Cert.KernelIdeal.TileValue.tileOf_apply (grid0.coords t) (arg m c) _ _ _ hX hXb hN p q, ← offN_of_lt]
  show offN (arg m c) (1024 * (grid0.coords t 0).val + p.val) (1024 * (grid0.coords t 1).val + q.val) = _
  rw [(coords_val t).1, (coords_val t).2]

/-- The running sums after point n, at local row p. -/
def partialRow (c : Dev nD) (n : ℕ) (p : Fin 1024) : EReal :=
  ∑ j ∈ Finset.range (n % 8 + 1), ∑ q : Fin 1024, offN (arg m c) (1024 * (n / 8) + p.val) (1024 * j + q.val)

/-- One step: the previous sums plus this tile's row sums. -/
theorem step_apply (c : Dev nD) (t : Fin cfg0.N) (acc : FVec Ideal S1024 .f32) (p : Fin 1024) :
    k0_pay1 (F := Ideal) (tileAt m c t) acc (ix1 p)
      = acc (ix1 p) + ∑ q : Fin 1024, offN (arg m c) (1024 * (t.val / 8) + p.val) (1024 * (t.val % 8) + q.val) := by
  rw [Cert.KernelIdeal.Tile.accum_apply]
  exact congrArg (acc (ix1 p) + ·) (Finset.sum_congr rfl fun q _ => tileAt_apply m c t p q)

/-- THE INVARIANT: the carried vector after point n is the running sum. -/
theorem carried_eq (c : Dev nD) : ∀ (n : ℕ) (h : n < cfg0.N) (p : Fin 1024),
    (outsAt0 m c n h).2 (ix1 p) = partialRow m c n p := by
  intro n
  induction n with
  | zero =>
    intro h p
    rw [outsAt0_A m c ⟨0, h⟩ (Nat.zero_mod 8) (show ¬(0 % 8 = 7) by decide)]
    dsimp only
    rw [Cert.KernelIdeal.Pieces.carried_A]
    show k0_pay1 (F := Ideal) (tileAt m c ⟨0, h⟩) _ (ix1 p) = _
    rw [step_apply, Cert.KernelIdeal.Tile.reset_apply, zero_add]
    unfold partialRow
    simp
  | succ n ih =>
    intro h p
    have hN : n + 1 < 64 := lt_of_lt_of_eq h (show cfg0.N = 64 from N_0)
    by_cases h0 : (n + 1) % 8 = 0
    · have h1 : ¬(n + 1) % 8 = 7 := by omega
      rw [outsAt0_A m c ⟨n + 1, h⟩ h0 h1]
      dsimp only
      rw [Cert.KernelIdeal.Pieces.carried_A]
      show k0_pay1 (F := Ideal) (tileAt m c ⟨n + 1, h⟩) _ (ix1 p) = _
      rw [step_apply, Cert.KernelIdeal.Tile.reset_apply, zero_add]
      unfold partialRow
      show _ = ∑ j ∈ Finset.range ((n + 1) % 8 + 1), _
      rw [h0]
      simp
    · have hprev : ∀ acc : FVec Ideal S1024 .f32, acc = (outsAt0 m c n (Nat.lt_of_succ_lt h)).2 →
          k0_pay1 (F := Ideal) (tileAt m c ⟨n + 1, h⟩) acc (ix1 p) = partialRow m c (n + 1) p := by
        intro acc hacc
        rw [step_apply, hacc, ih (Nat.lt_of_succ_lt h) p]
        unfold partialRow
        have e1 : n % 8 + 1 = (n + 1) % 8 := by omega
        have e2 : n / 8 = (n + 1) / 8 := by omega
        rw [e1, e2, Finset.sum_range_succ]
      by_cases h1 : (n + 1) % 8 = 7
      · rw [outsAt0_C m c ⟨n + 1, h⟩ h0 h1]
        dsimp only
        rw [Cert.KernelIdeal.Pieces.carried_C]
        exact hprev _ rfl
      · rw [outsAt0_B m c ⟨n + 1, h⟩ h0 h1]
        dsimp only
        rw [Cert.KernelIdeal.Pieces.carried_B]
        exact hprev _ rfl

/-- At the last column tile of a row block the output block holds the same vector. -/
theorem output_eq (c : Dev nD) (t : Fin cfg0.N) (h7 : t.val % 8 = 7) (p : Fin 1024) :
    (outsAt0 m c t.val t.isLt).1 (ix1 p) = partialRow m c t.val p := by
  have hN : t.val < 64 := lt_of_lt_of_eq t.isLt (show cfg0.N = 64 from N_0)
  have h0 : ¬t.val % 8 = 0 := by omega
  have hc := carried_eq m c t.val t.isLt p
  rw [outsAt0_C m c t h0 h7] at hc ⊢
  dsimp only at hc ⊢
  rw [Cert.KernelIdeal.Pieces.carried_C] at hc
  rw [Cert.KernelIdeal.Pieces.output_C]
  exact hc

end Cert.KernelIdeal.Accum

end
-- ==== Proof.RowSums.lean ====
/-
  The kernel's result array: the denominators  rows r = sum_s off r s,  one per row r of x.

  The output window's block at grid point n = 8a + b is entries 1024a .. 1024a + 1023 of the result array, written back
  only at the last column tile b = 7, when the carried vector holds the sums over all eight column tiles: the whole row.
  The eight write-backs (a = 0 .. 7) are disjoint blocks that together cover the array, so the array ends holding rows r
  at every r.
-/
import proofs.«164468_j79139067396375_1_alg».proof.Proof.Accum
import Idealize.ShloMosaic.Lib.Pipeline.Value

set_option maxRecDepth 16384

noncomputable section

namespace Cert.KernelIdeal.RowSums

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Accum (arg)

variable (m : (ℓ : Loc nD τ sig) → Buf (Elt Ideal) ℓ)

/-- The denominators, as the contents of the result array. -/
def rowsArr (c : Dev nD) : Buf (Elt Ideal) ((c.tc : Thread nD τ).loc main_v5) :=
  fun (j : S8192.Idx) => Cert.Loss.rows (arg m c) ⟨(j 0).val, (j 0).isLt⟩

/-- The output window's block index at point n is the row block n / 8. -/
theorem index3 : ∀ t : Fin cfg0.N, win0_3.index t 0 = t.val / 8 :=
  (by decide +kernel : ∀ t : Fin grid0.N, win0_3.index t 0 = t.val / 8)

/-- After the last column tile the running sum is the whole row's sum. -/
theorem partial_last (c : Dev nD) (n : ℕ) (h7 : n % 8 = 7) (p : Fin 1024) (r : Fin 8192) (hr : r.val = 1024 * (n / 8) + p.val) :
    Cert.KernelIdeal.Accum.partialRow m c n p = Cert.Loss.rows (arg m c) r := by
  unfold Cert.KernelIdeal.Accum.partialRow
  rw [h7, ← hr]
  exact Cert.KernelIdeal.Accum.tiles_eq_row (arg m c) r

/-- What a write-back writes is the block of the denominators' array. -/
theorem flushed_eq (c : Dev nD) (t : Fin cfg0.N) (hf : (cfg0.win 3).flush t = true) :
    (dats m 0 c).flushed 3 t = ((cfg0.win 3).blk t).view.read (Elt Ideal) (rowsArr m c) := by
  have h7 : t.val % 8 = 7 := (flush0_3 t).mp hf
  show (cfg0.win 3).cut (grid0.coords t) ((dats m 0 c).after 3 t) = _
  rw [after0_3]
  funext y
  rw [View.read_apply]
  obtain ⟨p, rfl⟩ : ∃ p : Fin 1024, y = ix1 p := ⟨y 0, eq_ix1 y⟩
  show (outsAt0 m c t.val t.isLt).1 (ix1 p) = _
  rw [Cert.KernelIdeal.Accum.output_eq m c t h7 p]
  unfold rowsArr
  refine partial_last m c t.val h7 p _ ?_
  show win0_3.index t 0 * 1024 + 1 * p.val = 1024 * (t.val / 8) + p.val
  rw [index3]; omega

/-- An entry of the array lies in point t's block iff it lies in the block's range. -/
theorem mem_blk (t : Fin cfg0.N) (i : S8192.Idx) :
    i ∈ ((cfg0.win 3).blk t).view.set
      ↔ ∀ a : Fin 1, win0_3.index t a * S1024.size a ≤ (i a).val ∧ (i a).val < win0_3.index t a * S1024.size a + S1024.size a := by
  show i ∈ ((View.whole main_v5).slice (win0_3.rect t)).set ↔ _
  rw [View.set_slice_whole, Rect.mem_set_unit]
  exact Iff.rfl

/-- Every entry is in the block of the last column tile of its row block. -/
theorem cover (i : S8192.Idx) : ∃ t : Fin cfg0.N, (cfg0.win 3).flush t = true ∧ i ∈ ((cfg0.win 3).blk t).view.set := by
  have hi : (i 0).val < 8192 := (i 0).isLt
  have hN : cfg0.N = 64 := N_0
  refine ⟨⟨8 * ((i 0).val / 1024) + 7, by rw [hN]; omega⟩, (flush0_3 _).mpr (by show (8 * ((i 0).val / 1024) + 7) % 8 = 7; omega), ?_⟩
  rw [mem_blk]
  intro a
  match a with
  | ⟨0, _⟩ =>
    show win0_3.index _ 0 * 1024 ≤ (i 0).val ∧ (i 0).val < win0_3.index _ 0 * 1024 + 1024
    rw [index3]
    show (8 * ((i 0).val / 1024) + 7) / 8 * 1024 ≤ (i 0).val ∧ (i 0).val < (8 * ((i 0).val / 1024) + 7) / 8 * 1024 + 1024
    omega

/-- The result array after the run. -/
theorem final (c : Dev nD) : (dats m 0 c).arrAt 3 cfg0.N = rowsArr m c :=
  (dats m 0 c).arrAt_eq_of_cover 3 (rowsArr m c) (fun t hf => flushed_eq m c t hf) (cover)

end Cert.KernelIdeal.RowSums

end
-- ==== Proof.KernelRun.lean ====
/-
  The kernel program's run at the ideal values: it ends with the loss of its argument in its result buffer.

  The region leaves the denominators rows r in the result array (the accumulated tile sums), x unchanged, and the row
  lengths nrm r where the lines before the region put them; the lines after the region turn exactly these into
  sum_r - log (pair r / rows r), the loss.
-/
import proofs.«164468_j79139067396375_1_alg».proof.Proof.TailRead
import proofs.«164468_j79139067396375_1_alg».proof.Proof.TailValue
import proofs.«164468_j79139067396375_1_alg».proof.Proof.RowSums

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Accum (arg)

variable (m : (ℓ : Loc nD τ sig) → Buf (Elt Ideal) ℓ) (ρ : Dev nD → PrngReg)

/-- The result buffer after the whole program is the loss of the argument. -/
theorem result_value (c : Dev nD) :
    Pipeline.afterTail₀ cfgs (dats m) 0 (V0 m) [hostOps1, hostOps1_1, hostOps1_2, hostOps1_3] c main_v20
      = fun _ => Cert.Loss.loss (arg m c) := by
  rw [Cert.KernelIdeal.TailRead.result_read, Cert.KernelIdeal.TailRead.left_arg0, Cert.KernelIdeal.TailRead.left_v3,
    Cert.KernelIdeal.TailRead.left_v5, Cert.KernelIdeal.RowSums.final, Cert.KernelIdeal.Inputs.found_v3]
  exact Cert.KernelIdeal.TailValue.tail_value _ _ _ (fun r => Cert.KernelIdeal.Inputs.lens_apply _ r) (fun r => rfl)

/-- Every weakly fair execution of the kernel program terminates with the loss in its result and its argument unchanged. -/
theorem run : θ_run defs (onTc (τ := τ) (main (F := Ideal))) ⟨m, fun _ => 0, ρ⟩ fun r => ∀ c : Dev nD,
      r.2.mem ((c.tc : Thread nD τ).loc main_v20) = (fun _ => Cert.Loss.loss (arg m c))
      ∧ r.2.mem ((c.tc : Thread nD τ).loc main_arg0) = m ((c.tc : Thread nD τ).loc main_arg0) :=
  (θ_run defs _ _).mono (fun r h c =>
      ⟨((h c).2 main_v20 Cert.KernelIdeal.TailRead.result_mem).trans (result_value m c),
       ((h c).1 0).trans (((dats m 0 c).arrAt_in 0 rfl _).trans ((A_eq m c 0).trans (V_main_arg0 m c)))⟩)
    (run_main m ρ)

end Cert.KernelIdeal.KernelRun

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.RefMatrix.lean ====
/-
  The reference's matrix stages read at one entry (r, s): the rows' lengths, the floored cosine, its exponential over the
  temperature, the diagonal's indicator and the masked exponential, each as the loss's own function of the argument array.
-/
import proofs.«164468_j79139067396375_1_alg».proof.Defs
import proofs.«164468_j79139067396375_1_alg».proof.Proof.Gen.ReferenceIdeal.Run
import proofs.«164468_j79139067396375_1_alg».proof.Proof.Gen.ReferenceIdeal.Read
import proofs.«164468_j79139067396375_1_alg».proof.Proof.Loss
import proofs.«164468_j79139067396375_1_alg».proof.Proof.LibSpellings

noncomputable section

namespace Cert.ReferenceIdeal.RefStages

open Cert.ReferenceIdeal Cert.ReferenceIdeal.Gen Cert.ReferenceIdeal.Read Idealize.ShloMosaic Idealize.ShloMosaic.ValueIdx Cert.Loss

/-- The argument array's type, as the reference's stages take it. -/
abbrev Arg : Type := (⟨S8192x128, .f32⟩ : BufTy).Contents (Elt Ideal)

/-! ## Row lengths -/

/-- The row reduction's operand index at row r, column k. -/
theorem idx_sq (r : Fin 8192) (k : Fin 128) : idx_main_call0_v1 (ix1 r) k = ix2 r k :=
  funext fun a => Fin.ext (by match a with | ⟨0, _⟩ => rfl | ⟨1, _⟩ => rfl)

/-- The sum of squares of row r. -/
theorem sq_apply (x : Arg) (r : Fin 8192) : val_main_call0_v1 (F := Ideal) x (ix1 r) = Loss.sq x r := by
  rw [val_main_call0_v1_apply, val_main_call0_cst_apply, Ideal.ofBits_def, Ideal.ofBits_zero_f32, zero_add]
  unfold Loss.sq
  refine Finset.sum_congr rfl fun k _ => ?_
  rw [val_main_call0_v0_apply, Ideal.mulf_def, idx_sq]

/-- The length of row r. -/
theorem nrm_apply (x : Arg) (r : Fin 8192) : val_main_v0 (F := Ideal) x (ix1 r) = Loss.nrm x r := by
  rw [val_main_v0_apply, Ideal.hostUnary_sqrt_def, sq_apply]
  rfl

/-! ## The floored product of lengths -/

theorem idx_col (r s : Fin 8192) : idx_main_v1 (idx_main_v3 (ix2 r s)) = ix1 r :=
  funext fun a => Fin.ext (by match a with | ⟨0, _⟩ => rfl)

theorem idx_row (r s : Fin 8192) : idx_main_v2 (idx_main_v4 (ix2 r s)) = ix1 s :=
  funext fun a => Fin.ext (by match a with | ⟨0, _⟩ => rfl)

/-- The product of the two rows' lengths. -/
theorem v5_apply (x : Arg) (r s : Fin 8192) : val_main_v5 (F := Ideal) x (ix2 r s) = Loss.nrm x r * Loss.nrm x s := by
  rw [val_main_v5_apply, Ideal.mulf_def, val_main_v3_apply, val_main_v1_apply, val_main_v4_apply, val_main_v2_apply,
    idx_col, idx_row, nrm_apply, nrm_apply]

/-- The cosine's denominator. -/
theorem v7_apply (x : Arg) (r s : Fin 8192) : val_main_v7 (F := Ideal) x (ix2 r s) = max (Loss.nrm x r * Loss.nrm x s) Loss.eps := by
  rw [val_main_v7_apply, Ideal.maximumf_def, v5_apply, val_main_v6_apply, val_main_cst_apply, Ideal.ofBits_def]

/-! ## Inner products and cosines -/

theorem idx_lhs (r s : Fin 8192) (k : Fin 128) : lidx_main_v9 (ix2 r s) k = ix2 r k :=
  funext fun a => Fin.ext (by match a with | ⟨0, _⟩ => rfl | ⟨1, _⟩ => rfl)

theorem idx_rhs (r s : Fin 8192) (k : Fin 128) : idx_main_v8 (ridx_main_v9 (ix2 r s) k) = ix2 s k :=
  funext fun a => Fin.ext (by match a with | ⟨0, _⟩ => rfl | ⟨1, _⟩ => rfl)

/-- The inner product of rows r and s. -/
theorem v9_apply (x : Arg) (r s : Fin 8192) : val_main_v9 (F := Ideal) x (ix2 r s) = Loss.dotp x r s := by
  rw [val_main_v9_apply]
  unfold Loss.dotp
  refine Finset.sum_congr rfl fun k _ => ?_
  rw [val_main_v8_apply, idx_lhs, idx_rhs]

/-- The floored cosine of rows r and s. -/
theorem v10_apply (x : Arg) (r s : Fin 8192) : val_main_v10 (F := Ideal) x (ix2 r s) = Loss.cosv x r s := by
  rw [val_main_v10_apply, Ideal.hostDivf_def, v9_apply, v7_apply]
  rfl

/-- The exponential of the cosine over the temperature. -/
theorem v13_apply (x : Arg) (r s : Fin 8192) :
    val_main_v13 (F := Ideal) x (ix2 r s) = Ideal.exp (Ideal.div (Loss.cosv x r s) Loss.half) := by
  rw [val_main_v13_apply, Ideal.hostUnary_exp_def, val_main_v12_apply, Ideal.hostDivf_def, v10_apply, val_main_v11_apply,
    val_main_cst_0_apply, Ideal.ofBits_def]

/-! ## The diagonal's indicator -/

/-- Two row numbers with the same 32-bit word are equal. -/
theorem ofNat_inj_of_lt {a b : ℕ} (ha : a < 8192) (hb : b < 8192) (h : BitVec.ofNat 32 a = BitVec.ofNat 32 b) : a = b := by
  have := congrArg BitVec.toNat h
  simp only [BitVec.toNat_ofNat] at this
  omega

/-- The comparison bit: set exactly on the diagonal. -/
theorem v18_apply (r s : Fin 8192) : val_main_v18 (F := Ideal) (ix2 r s) = if r = s then 1#1 else 0#1 := by
  rw [val_main_v18_apply, val_main_v17_apply, val_main_v14_apply, val_main_v15_apply, val_main_v16_apply, val_main_c_apply]
  show BitVec.ofBool (BitVec.ofNat 32 r.val + 0#32 == BitVec.ofNat 32 s.val) = _
  rw [BitVec.add_zero]
  by_cases h : r = s
  · subst h; rw [if_pos rfl, beq_self_eq_true]; rfl
  · rw [if_neg h]
    have hne : BitVec.ofNat 32 r.val ≠ BitVec.ofNat 32 s.val :=
      fun e => h (Fin.ext (ofNat_inj_of_lt r.isLt s.isLt e))
    rw [beq_eq_false_iff_ne.mpr hne]; rfl

/-- The indicator as a number: 1 on the diagonal, 0 off it. -/
theorem v19_apply (r s : Fin 8192) :
    val_main_v19 (F := Ideal) (ix2 r s) = if r = s then ((1 : ℝ) : EReal) else ((0 : ℝ) : EReal) := by
  rw [val_main_v19_apply, v18_apply]
  by_cases h : r = s
  · rw [if_pos h, if_pos h]
    show ((((1#1 : BitVec 1).toNat : ℕ) : ℝ) : EReal) = _
    rw [show (1#1 : BitVec 1).toNat = 1 from rfl, Nat.cast_one]
  · rw [if_neg h, if_neg h]
    show ((((0#1 : BitVec 1).toNat : ℕ) : ℝ) : EReal) = _
    rw [show (0#1 : BitVec 1).toNat = 0 from rfl, Nat.cast_zero]

/-- One minus the indicator. -/
theorem v21_apply (r s : Fin 8192) :
    val_main_v21 (F := Ideal) (ix2 r s) = (1 : EReal) - (if r = s then ((1 : ℝ) : EReal) else ((0 : ℝ) : EReal)) := by
  rw [val_main_v21_apply, Ideal.subf_def, val_main_v20_apply, val_main_cst_1_apply, Ideal.ofBits_def,
    Cert.LibSpellings.ofBits_one_f32, v19_apply]

/-! ## The masked exponentials -/

/-- The masked exponential at (r, s): 0 on the diagonal, the exponential of twice the cosine off it. -/
theorem v22_apply (x : Arg) (r s : Fin 8192) : val_main_v22 (F := Ideal) x (ix2 r s) = Loss.off x r s := by
  rw [val_main_v22_apply, Ideal.mulf_def, v13_apply, v21_apply]
  unfold Loss.off
  by_cases h : r = s
  · rw [if_pos h, if_pos h, Loss.mask_diag]
  · rw [if_neg h, if_neg h, Loss.mask_off, Loss.div_half]

/-- Off the diagonal the masked exponential is the unmasked one. -/
theorem v22_apply_of_ne (x : Arg) (r s : Fin 8192) (h : r ≠ s) :
    val_main_v22 (F := Ideal) x (ix2 r s) = Ideal.exp (Ideal.div (Loss.cosv x r s) Loss.half) := by
  rw [val_main_v22_apply, Ideal.mulf_def, v13_apply, v21_apply, if_neg h, Loss.mask_off]

end Cert.ReferenceIdeal.RefStages

end
-- ==== Proof.RefCols.lean ====
/-
  The reference's integer columns read at one row r: the row number, the partner's row number (r + 4096 in the first half of
  the array, r - 4096 in the second, both computed in 32-bit two's complement on values below 8192), the normalisation of a
  possibly negative index (the identity here, the values being nonnegative), and the two columns side by side.
-/
import proofs.«164468_j79139067396375_1_alg».proof.Defs
import proofs.«164468_j79139067396375_1_alg».proof.Proof.Gen.ReferenceIdeal.Run
import proofs.«164468_j79139067396375_1_alg».proof.Proof.Gen.ReferenceIdeal.Read
import proofs.«164468_j79139067396375_1_alg».proof.Proof.Loss
import Idealize.ShloMosaic.Lib.Pipeline.Value

noncomputable section

namespace Cert.ReferenceIdeal.RefStages

open Cert.ReferenceIdeal Cert.ReferenceIdeal.Gen Cert.ReferenceIdeal.Read Idealize.ShloMosaic Idealize.ShloMosaic.ValueIdx Cert.Loss

/-! ## Words below 2^31: signed reading, order, sum and difference -/

/-- A word below 2^31 read as a signed integer is the number itself. -/
theorem toInt_ofNat_of_lt (a : ℕ) (ha : a < 2147483648) : (BitVec.ofNat 32 a).toInt = (a : Int) := by
  have hn : (BitVec.ofNat 32 a).toNat = a := by rw [BitVec.toNat_ofNat]; omega
  rw [BitVec.toInt_eq_toNat_of_lt (by rw [hn]; omega), hn]

/-- The signed order of two words below 2^31 is the order of the numbers. -/
theorem slt_ofNat (a b : ℕ) (ha : a < 2147483648) (hb : b < 2147483648) :
    IntOp.cmpi .slt (BitVec.ofNat 32 a) (BitVec.ofNat 32 b) = if a < b then 1#1 else 0#1 := by
  show BitVec.ofBool ((BitVec.ofNat 32 a).slt (BitVec.ofNat 32 b)) = _
  rw [BitVec.slt_eq_decide, toInt_ofNat_of_lt a ha, toInt_ofNat_of_lt b hb]
  by_cases h : a < b
  · rw [if_pos h, decide_eq_true (by exact_mod_cast h)]; rfl
  · rw [if_neg h, decide_eq_false (by exact_mod_cast h)]; rfl

/-! ## The row-number column and the partner column -/

/-- The row numbers. -/
theorem v23_apply (r : Fin 8192) : val_main_v23 (F := Ideal) (ix1 r) = BitVec.ofNat 32 r.val := by
  rw [val_main_v23_apply]

/-- The partner's row number: r + 4096 in the first half, r - 4096 in the second. -/
theorem v30_apply (r : Fin 8192) : val_main_v30 (F := Ideal) (ix1 r) = BitVec.ofNat 32 (Loss.partner r).val := by
  rw [val_main_v30_apply, val_main_v25_apply, val_main_v27_apply, val_main_v29_apply, v23_apply,
    val_main_v24_apply, val_main_c_2_apply, val_main_v26_apply, val_main_c_3_apply, val_main_v28_apply,
    val_main_c_4_apply]
  show Scalar.select (IntOp.cmpi .slt (BitVec.ofNat 32 r.val) (BitVec.ofNat 32 4096))
    (BitVec.ofNat 32 r.val + BitVec.ofNat 32 4096) (BitVec.ofNat 32 r.val - BitVec.ofNat 32 4096)
    = BitVec.ofNat 32 ((r.val + 4096) % 8192)
  have hr := r.isLt
  rw [slt_ofNat _ _ (by omega) (by norm_num)]
  by_cases h : r.val < 4096
  · rw [if_pos h, select_one, ← BitVec.ofNat_add]
    exact congrArg (BitVec.ofNat 32) (by omega)
  · rw [if_neg h, select_zero, BitVec.ofNat_sub_ofNat_of_le _ _ (by norm_num) (by omega)]
    exact congrArg (BitVec.ofNat 32) (by omega)

/-- Normalising a nonnegative index changes nothing: the row numbers. -/
theorem v35_apply (r : Fin 8192) : val_main_v35 (F := Ideal) (ix1 r) = BitVec.ofNat 32 r.val := by
  rw [val_main_v35_apply, val_main_v32_apply, v23_apply, val_main_v31_apply, val_main_c_5_apply]
  show Scalar.select (IntOp.cmpi .slt (BitVec.ofNat 32 r.val) (BitVec.ofNat 32 0)) _ _ = _
  have hr := r.isLt
  rw [slt_ofNat _ _ (by omega) (by norm_num), if_neg (Nat.not_lt_zero _), select_zero]

/-- Normalising a nonnegative index changes nothing: the partners. -/
theorem v40_apply (r : Fin 8192) : val_main_v40 (F := Ideal) (ix1 r) = BitVec.ofNat 32 (Loss.partner r).val := by
  rw [val_main_v40_apply, val_main_v37_apply, v30_apply, val_main_v36_apply, val_main_c_7_apply]
  show Scalar.select (IntOp.cmpi .slt (BitVec.ofNat 32 (Loss.partner r).val) (BitVec.ofNat 32 0)) _ _ = _
  have hp := (Loss.partner r).isLt
  rw [slt_ofNat _ _ (by omega) (by norm_num), if_neg (Nat.not_lt_zero _), select_zero]

/-! ## The two columns side by side -/

theorem idx_c41 (r : Fin 8192) : idx_main_v41 (ix2 r (0 : Fin 1)) = ix1 r :=
  funext fun a => Fin.ext (by match a with | ⟨0, _⟩ => rfl)

theorem idx_c42 (r : Fin 8192) : idx_main_v42 (ix2 r (0 : Fin 1)) = ix1 r :=
  funext fun a => Fin.ext (by match a with | ⟨0, _⟩ => rfl)

/-- Row r of the index array, first entry: r. -/
theorem v43_col0 (r : Fin 8192) : val_main_v43 (F := Ideal) (ix2 r (0 : Fin 2)) = BitVec.ofNat 32 r.val := by
  unfold val_main_v43
  rw [concatenate_pair_apply_left (s₁ := S8192x1) (s₂ := S8192x1) (1 : Fin S8192x2.rank) _ _ _ (ix2 r (0 : Fin 2)) rfl (ix2 r (0 : Fin 1))
    (fun b => by match b with | ⟨0, _⟩ => rfl | ⟨1, _⟩ => rfl)]
  rw [val_main_v41_apply, idx_c41, v35_apply]

/-- Row r of the index array, second entry: the partner of r. -/
theorem v43_col1 (r : Fin 8192) : val_main_v43 (F := Ideal) (ix2 r (1 : Fin 2)) = BitVec.ofNat 32 (Loss.partner r).val := by
  unfold val_main_v43
  rw [concatenate_pair_apply_right (s₁ := S8192x1) (s₂ := S8192x1) (1 : Fin S8192x2.rank) _ _ _ (ix2 r (1 : Fin 2)) rfl rfl (ix2 r (0 : Fin 1))
    (fun b hb => by
      match b with
      | ⟨0, _⟩ => rfl
      | ⟨1, _⟩ => exact absurd rfl hb)
    rfl]
  rw [val_main_v42_apply, idx_c42, v40_apply]

end Cert.ReferenceIdeal.RefStages

end
-- ==== Proof.RefGather.lean ====
/-
  The reference's gather read at one row r. Row r of the index array holds the pair (r, partner r); each component is read as
  a signed integer and clamped into the array, which changes nothing for a row number; so the gather reads the masked
  exponential at (r, partner r), and that entry is off the diagonal: the numerator of row r's term.
-/
import proofs.«164468_j79139067396375_1_alg».proof.Defs
import proofs.«164468_j79139067396375_1_alg».proof.Proof.Gen.ReferenceIdeal.Run
import proofs.«164468_j79139067396375_1_alg».proof.Proof.Gen.ReferenceIdeal.Read
import proofs.«164468_j79139067396375_1_alg».proof.Proof.Loss
import proofs.«164468_j79139067396375_1_alg».proof.Proof.RefMatrix
import proofs.«164468_j79139067396375_1_alg».proof.Proof.RefCols

noncomputable section

namespace Cert.ReferenceIdeal.RefStages

open Cert.ReferenceIdeal Cert.ReferenceIdeal.Gen Cert.ReferenceIdeal.Read Idealize.ShloMosaic Idealize.ShloMosaic.ValueIdx Cert.Loss

/-- The gather's dimension numbers: one element per row, at the index pair the row of the index array holds. -/
abbrev D := gather_S8192x8192_S8192x2_S8192_n_01_n_n_01_1_11

/-- A row's partner is another row. -/
theorem partner_ne (r : Fin 8192) : Loss.partner r ≠ r := by
  intro h
  have := congrArg Fin.val h
  have hr := r.isLt
  change (r.val + 4096) % 8192 = r.val at this
  omega

/-- The index array's entry the gather consults for component c of row r's index pair. -/
theorem siIdx_apply (r : Fin 8192) (c : Fin 2) (hc : c.val < D.startIndexMap.length) :
    D.siIdx (ix1 r) ⟨c.val, hc⟩ = ix2 r c := by
  funext b
  refine Fin.ext ?_
  match b, c with
  | ⟨0, _⟩, _ => rfl
  | ⟨1, _⟩, ⟨0, _⟩ => rfl
  | ⟨1, _⟩, ⟨1, _⟩ => rfl

/-- A row number read signed and clamped to the array is the row number. -/
theorem clamp_row (p : Fin 8192) : min (BitVec.ofNat 32 p.val).toInt.toNat (8192 - 1) = p.val := by
  have hp := p.isLt
  rw [toInt_ofNat_of_lt _ (by omega), Int.toNat_natCast]
  omega

/-- The gather's row coordinate for row r: the first entry of the index pair, r. -/
theorem operandIdx_row (r : Fin 8192) :
    (D.operandIdx (ix1 r) (val_main_v43 (F := Ideal)) (0 : Fin S8192x8192.rank)).val = r.val := by
  show D.start (ix1 r) (val_main_v43 (F := Ideal)) (0 : Fin S8192x8192.rank) + D.batchCoord (ix1 r) (0 : Fin S8192x8192.rank)
    + D.offCoord (ix1 r) (0 : Fin S8192x8192.rank) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S8192x8192.rank) ∈ D.startIndexMap by decide)]
  have hsi := siIdx_apply r (0 : Fin 2) (by decide)
  rw [show (⟨List.idxOf (0 : Fin S8192x8192.rank) D.startIndexMap,
      List.idxOf_lt_length_iff.2 (show (0 : Fin S8192x8192.rank) ∈ D.startIndexMap by decide)⟩
      : Fin D.startIndexMap.length) = ⟨(0 : Fin 2).val, by decide⟩ from rfl, hsi, v43_col0]
  exact clamp_row r

/-- The gather's column coordinate for row r: the second entry of the index pair, the partner of r. -/
theorem operandIdx_col (r : Fin 8192) :
    (D.operandIdx (ix1 r) (val_main_v43 (F := Ideal)) (1 : Fin S8192x8192.rank)).val = (Loss.partner r).val := by
  show D.start (ix1 r) (val_main_v43 (F := Ideal)) (1 : Fin S8192x8192.rank) + D.batchCoord (ix1 r) (1 : Fin S8192x8192.rank)
    + D.offCoord (ix1 r) (1 : Fin S8192x8192.rank) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S8192x8192.rank) ∈ D.startIndexMap by decide)]
  have hsi := siIdx_apply r (1 : Fin 2) (by decide)
  rw [show (⟨List.idxOf (1 : Fin S8192x8192.rank) D.startIndexMap,
      List.idxOf_lt_length_iff.2 (show (1 : Fin S8192x8192.rank) ∈ D.startIndexMap by decide)⟩
      : Fin D.startIndexMap.length) = ⟨(1 : Fin 2).val, by decide⟩ from rfl, hsi, v43_col1]
  exact clamp_row (Loss.partner r)

/-- The element the gather reads for row r: the one at (r, partner r). -/
theorem operandIdx_apply (r : Fin 8192) :
    D.operandIdx (ix1 r) (val_main_v43 (F := Ideal)) = ix2 r (Loss.partner r) := by
  funext a
  refine Fin.ext ?_
  match a with
  | ⟨0, _⟩ => exact operandIdx_row r
  | ⟨1, _⟩ => exact operandIdx_col r

/-- The gathered numerator of row r: the exponential of its positive pair's cosine over the temperature. -/
theorem v44_apply (x : Arg) (r : Fin 8192) : val_main_v44 (F := Ideal) x (ix1 r) = Loss.pair x r := by
  unfold val_main_v44
  show val_main_v22 (F := Ideal) x (D.operandIdx (ix1 r) (val_main_v43 (F := Ideal))) = _
  rw [operandIdx_apply, v22_apply_of_ne x r (Loss.partner r) (partner_ne r).symm]
  rfl

end Cert.ReferenceIdeal.RefStages

end
-- ==== Proof.RefStages.lean ====
/-
  The reference program's stages read one at a time: every intermediate array of the plain-jnp loss as a function
  of the argument array, index by index, over the extended reals. The matrix stages, the integer columns and the gather are
  read in the modules imported here; this one reads the row sums, the logarithms and the final sum, and states the result:
  the reference's output is the loss of its argument.
-/
import proofs.«164468_j79139067396375_1_alg».proof.Defs
import proofs.«164468_j79139067396375_1_alg».proof.Proof.Gen.ReferenceIdeal.Run
import proofs.«164468_j79139067396375_1_alg».proof.Proof.Gen.ReferenceIdeal.Read
import proofs.«164468_j79139067396375_1_alg».proof.Proof.Loss
import proofs.«164468_j79139067396375_1_alg».proof.Proof.LibTileSums
import proofs.«164468_j79139067396375_1_alg».proof.Proof.RefGather

noncomputable section

namespace Cert.ReferenceIdeal.RefStages

open Cert.ReferenceIdeal Cert.ReferenceIdeal.Gen Cert.ReferenceIdeal.Read Idealize.ShloMosaic Idealize.ShloMosaic.ValueIdx Cert.Loss

/-! ## The row sums -/

theorem idx_rows (r s : Fin 8192) : idx_main_v45 (ix1 r) s = ix2 r s :=
  funext fun a => Fin.ext (by match a with | ⟨0, _⟩ => rfl | ⟨1, _⟩ => rfl)

/-- The denominator of row r: the sum of its masked exponentials. -/
theorem rows_apply (x : Arg) (r : Fin 8192) : val_main_v45 (F := Ideal) x (ix1 r) = Loss.rows x r := by
  rw [val_main_v45_apply, val_main_cst_9_apply, Ideal.ofBits_def, Ideal.ofBits_zero_f32, zero_add]
  unfold Loss.rows
  refine Finset.sum_congr rfl fun s _ => ?_
  rw [idx_rows, v22_apply]

/-! ## One row's term and the loss -/

/-- Row r's term: minus the logarithm of numerator over denominator. -/
theorem term_apply (x : Arg) (r : Fin 8192) : val_main_v48 (F := Ideal) x (ix1 r) = Loss.term x r := by
  rw [val_main_v48_apply, Ideal.hostNegf_def, Ideal.negf_def, val_main_v47_apply, Ideal.hostUnary_log_def,
    val_main_v46_apply, Ideal.hostDivf_def, v44_apply, rows_apply]
  rfl

/-- The reference's result is the loss of its argument. -/
theorem result_eq (x : (⟨Cert.ReferenceIdeal.S8192x128, .f32⟩ : BufTy).Contents (Elt Ideal)) :
    Cert.ReferenceIdeal.Read.val_main_v49 (F := Ideal) x = fun _ => Cert.Loss.loss x := by
  funext i
  rw [val_main_v49_apply, val_main_cst_10_apply, Ideal.ofBits_def, Ideal.ofBits_zero_f32, zero_add,
    Cert.LibTileSums.sum_idx1]
  unfold Loss.loss
  exact Finset.sum_congr rfl fun r _ => term_apply x r

end Cert.ReferenceIdeal.RefStages

end
-- ==== Proof.lean ====
/-
  The claim: the tiled kernel program and the plain reference compute the same contrastive loss.

  Both programs, read at the extended reals, end with  sum_r - log (pair r / rows r)  of their argument x (module Loss):
  the reference because each of its stages is that function's stage (RefStages and the modules under it), the kernel
  because its region accumulates rows r tile by tile (Tile, Pieces, TileValue, Accum, RowSums) and its host lines turn
  the region's output into the loss (TailDefs, TailValue, TailRead, KernelRun). The two spellings differ in three places
  — a product with 2 against a quotient by 1/2, a select against a product with 1 - (diagonal indicator), and eight tile
  sums against one row sum — each an identity on every extended real, so the precondition is not used.
  The three frames are the generated runs; the kernel's idealization rewrote nothing.
-/
import proofs.«164468_j79139067396375_1_alg».proof.Defs
import proofs.«164468_j79139067396375_1_alg».proof.Proof.Gen.Kernel
import proofs.«164468_j79139067396375_1_alg».proof.Proof.Gen.Kernel.Skeleton
import proofs.«164468_j79139067396375_1_alg».proof.Proof.Gen.Kernel.Launch
import proofs.«164468_j79139067396375_1_alg».proof.Proof.Gen.Kernel.Points
import proofs.«164468_j79139067396375_1_alg».proof.Proof.Gen.Kernel.Frame
import proofs.«164468_j79139067396375_1_alg».proof.Proof.Gen.KernelIdeal
import proofs.«164468_j79139067396375_1_alg».proof.Proof.Gen.KernelIdeal.Skeleton
import proofs.«164468_j79139067396375_1_alg».proof.Proof.Gen.KernelIdeal.Launch
import proofs.«164468_j79139067396375_1_alg».proof.Proof.Gen.KernelIdeal.Points
import proofs.«164468_j79139067396375_1_alg».proof.Proof.Gen.KernelIdeal.Frame
import proofs.«164468_j79139067396375_1_alg».proof.Proof.Gen.ReferenceIdeal
import proofs.«164468_j79139067396375_1_alg».proof.Proof.Gen.ReferenceIdeal.Run
import proofs.«164468_j79139067396375_1_alg».proof.Proof.Gen.ReferenceIdeal.Read
import proofs.«164468_j79139067396375_1_alg».proof.Proof.Gen.Pre_finite_inputs
import proofs.«164468_j79139067396375_1_alg».proof.Proof.KernelRun
import proofs.«164468_j79139067396375_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on x, both programs end with the loss of x. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefStages.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
